-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x2000 : Shape := ⟨3, ![2, 50000, 2000]⟩
abbrev S1600000 : Shape := ⟨1, ![1600000]⟩
abbrev S2x2000x500 : Shape := ⟨3, ![2, 2000, 500]⟩
abbrev S2x500 : Shape := ⟨2, ![2, 500]⟩
abbrev S2x500x128 : Shape := ⟨3, ![2, 500, 128]⟩
abbrev S2x128 : Shape := ⟨2, ![2, 128]⟩
abbrev S2x128x64 : Shape := ⟨3, ![2, 128, 64]⟩
abbrev S2x64 : Shape := ⟨2, ![2, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩

class Facts : Prop where
  bcast_S_S2x50000x2000 : S_.BroadcastsInDim S2x50000x2000 (![] : Fin 0 → Fin S2x50000x2000.rank)
  reducesTo_S2x50000x2000_S_d0_1_2 : S2x50000x2000.ReducesTo [0, 1, 2] S_
  h_S_ : 0 < S_.numel
  bcast_S_S2x2000x500 : S_.BroadcastsInDim S2x2000x500 (![] : Fin 0 → Fin S2x2000x500.rank)
  reducesTo_S2x2000x500_S_d0_1_2 : S2x2000x500.ReducesTo [0, 1, 2] S_
  bcast_S_S2x500 : S_.BroadcastsInDim S2x500 (![] : Fin 0 → Fin S2x500.rank)
  reducesTo_S2x500_S_d0_1 : S2x500.ReducesTo [0, 1] S_
  bcast_S_S2x500x128 : S_.BroadcastsInDim S2x500x128 (![] : Fin 0 → Fin S2x500x128.rank)
  reducesTo_S2x500x128_S_d0_1_2 : S2x500x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  main_v103

def fn_part5 {F : FTy → Type} [FloatOps F] (main_arg20 : FVec F S32 .f32) (main_arg21 : FVec F S32x4 .f32) (main_arg22 : FVec F S4 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x4 .f32 := Host.absf main_arg21
  let main_cst_36 : FVec F S_ .f32 := constant S_ .f32 0x7F800000#32
  let main_v95 : FVec F S32x4 .f32 := broadcastInDim S32x4 ![] bcast_S_S32x4 main_cst_36
  let main_v96 : IVec S32x4 1 := cmpf .olt main_v94 main_v95
  let main_c_37 : IVec S_ 1 := constantI S_ 1 1#1
  let main_v97 : IVec S_ 1 := (fun x v => Host.reduce IntOp.andi x v reducesTo_S32x4_S_d0_1 h_S_) main_v96 main_c_37
  let main_v98 : IVec S_ 1 := andi main_v93 main_v97
  let main_v99 : FVec F S4 .f32 := Host.absf main_arg22
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_v98 main_v101 main_c_39

def fn_part4 {F : FTy → Type} [FloatOps F] (main_arg16 : FVec F S2x64 .f32) (main_arg17 : FVec F S64x64 .f32) (main_arg18 : FVec F S64 .f32) (main_arg19 : FVec F S64x32 .f32) (main_arg20 : FVec F S32 .f32) (main_arg21 : FVec F S32x4 .f32) (main_arg22 : FVec F S4 .f32) (main_v63 : IVec S_ 1) (main_v67 : IVec S_ 1) : IVec S_ 1 :=
  let main_v68 : IVec S_ 1 := andi main_v63 main_v67
  let main_v69 : FVec F S2x64 .f32 := Host.absf main_arg16
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x32 .f32) (main_arg20 : FVec F S32 .f32) (main_arg21 : FVec F S32x4 .f32) (main_arg22 : FVec F S4 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg13
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg14
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128x64 .f32 := Host.absf main_arg15
  let main_cst_24 : FVec F S_ .f32 := constant S_ .f32 0x7F800000#32
  let main_v65 : FVec F S2x128x64 .f32 := broadcastInDim S2x128x64 ![] bcast_S_S2x128x64 main_cst_24
  let main_v66 : IVec S2x128x64 1 := cmpf .olt main_v64 main_v65
  let main_c_25 : IVec S_ 1 := constantI S_ 1 1#1
  let main_v67 : IVec S_ 1 := (fun x v => Host.reduce IntOp.andi x v reducesTo_S2x128x64_S_d0_1_2 h_S_) main_v66 main_c_25
  fn_part4 (F := F) main_arg16 main_arg17 main_arg18 main_arg19 main_arg20 main_arg21 main_arg22 main_v63 main_v67

def fn_part2 {F : FTy → Type} [FloatOps F] (main_arg9 : FVec F S2x500x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x32 .f32) (main_arg20 : FVec F S32 .f32) (main_arg21 : FVec F S32x4 .f32) (main_arg22 : FVec F S4 .f32) (main_v33 : IVec S_ 1) : IVec S_ 1 :=
  let main_v34 : FVec F S2x500x128 .f32 := Host.absf main_arg9
  let main_cst_12 : FVec F S_ .f32 := constant S_ .f32 0x7F800000#32
  let main_v35 : FVec F S2x500x128 .f32 := broadcastInDim S2x500x128 ![] bcast_S_S2x500x128 main_cst_12
  let main_v36 : IVec S2x500x128 1 := cmpf .olt main_v34 main_v35
  let main_c_13 : IVec S_ 1 := constantI S_ 1 1#1
  let main_v37 : IVec S_ 1 := (fun x v => Host.reduce IntOp.andi x v reducesTo_S2x500x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S2x500 .f32) (main_arg7 : FVec F S2x500 .f32) (main_arg8 : FVec F S2x500 .f32) (main_arg9 : FVec F S2x500x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x32 .f32) (main_arg20 : FVec F S32 .f32) (main_arg21 : FVec F S32x4 .f32) (main_arg22 : FVec F S4 .f32) (main_v13 : IVec S_ 1) (main_v16 : IVec S2x500 1) : IVec S_ 1 :=
  let main_c_5 : IVec S_ 1 := constantI S_ 1 1#1
  let main_v17 : IVec S_ 1 := (fun x v => Host.reduce IntOp.andi x v reducesTo_S2x500_S_d0_1 h_S_) main_v16 main_c_5
  let main_v18 : IVec S_ 1 := andi main_v13 main_v17
  let main_v19 : FVec F S2x500 .f32 := Host.absf main_arg6
  let main_cst_6 : FVec F S_ .f32 := constant S_ .f32 0x7F800000#32
  let main_v20 : FVec F S2x500 .f32 := broadcastInDim S2x500 ![] bcast_S_S2x500 main_cst_6
  let main_v21 : IVec S2x500 1 := cmpf .olt main_v19 main_v20
  let main_c_7 : IVec S_ 1 := constantI S_ 1 1#1
  let main_v22 : IVec S_ 1 := (fun x v => Host.reduce IntOp.andi x v reducesTo_S2x500_S_d0_1 h_S_) main_v21 main_c_7
  let main_v23 : IVec S_ 1 := andi main_v18 main_v22
  let main_v24 : FVec F S2x500 .f32 := Host.absf main_arg7
  let main_cst_8 : FVec F S_ .f32 := constant S_ .f32 0x7F800000#32
  let main_v25 : FVec F S2x500 .f32 := broadcastInDim S2x500 ![] bcast_S_S2x500 main_cst_8
  let main_v26 : IVec S2x500 1 := cmpf .olt main_v24 main_v25
  let main_c_9 : IVec S_ 1 := constantI S_ 1 1#1
  let main_v27 : IVec S_ 1 := (fun x v => Host.reduce IntOp.andi x v reducesTo_S2x500_S_d0_1 h_S_) main_v26 main_c_9
  let main_v28 : IVec S_ 1 := andi main_v23 main_v27
  let main_v29 : FVec F S2x500 .f32 := Host.absf main_arg8
  let main_cst_10 : FVec F S_ .f32 := constant S_ .f32 0x7F800000#32
  let main_v30 : FVec F S2x500 .f32 := broadcastInDim S2x500 ![] bcast_S_S2x500 main_cst_10
  let main_v31 : IVec S2x500 1 := cmpf .olt main_v29 main_v30
  let main_c_11 : IVec S_ 1 := constantI S_ 1 1#1
  let main_v32 : IVec S_ 1 := (fun x v => Host.reduce IntOp.andi x v reducesTo_S2x500_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S2x50000x2000 .f32) (main_arg1 : IVec S1600000 32) (main_arg2 : IVec S1600000 32) (main_arg3 : FVec F S2x2000x500 .f32) (main_arg4 : FVec F S2x500 .f32) (main_arg5 : FVec F S2x500 .f32) (main_arg6 : FVec F S2x500 .f32) (main_arg7 : FVec F S2x500 .f32) (main_arg8 : FVec F S2x500 .f32) (main_arg9 : FVec F S2x500x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S2x128x64 .f32) (main_arg16 : FVec F S2x64 .f32) (main_arg17 : FVec F S64x64 .f32) (main_arg18 : FVec F S64 .f32) (main_arg19 : FVec F S64x32 .f32) (main_arg20 : FVec F S32 .f32) (main_arg21 : FVec F S32x4 .f32) (main_arg22 : FVec F S4 .f32) : IVec S_ 1 :=
  let main_v0 : FVec F S2x50000x2000 .f32 := Host.absf main_arg0
  let main_cst : FVec F S_ .f32 := constant S_ .f32 0x7F800000#32
  let main_v1 : FVec F S2x50000x2000 .f32 := broadcastInDim S2x50000x2000 ![] bcast_S_S2x50000x2000 main_cst
  let main_v2 : IVec S2x50000x2000 1 := cmpf .olt main_v0 main_v1
  let main_c : IVec S_ 1 := constantI S_ 1 1#1
  let main_v3 : IVec S_ 1 := (fun x v => Host.reduce IntOp.andi x v reducesTo_S2x50000x2000_S_d0_1_2 h_S_) main_v2 main_c
  let main_v4 : FVec F S2x2000x500 .f32 := Host.absf main_arg3
  let main_cst_0 : FVec F S_ .f32 := constant S_ .f32 0x7F800000#32
  let main_v5 : FVec F S2x2000x500 .f32 := broadcastInDim S2x2000x500 ![] bcast_S_S2x2000x500 main_cst_0
  let main_v6 : IVec S2x2000x500 1 := cmpf .olt main_v4 main_v5
  let main_c_1 : IVec S_ 1 := constantI S_ 1 1#1
  let main_v7 : IVec S_ 1 := (fun x v => Host.reduce IntOp.andi x v reducesTo_S2x2000x500_S_d0_1_2 h_S_) main_v6 main_c_1
  let main_v8 : IVec S_ 1 := andi main_v3 main_v7
  let main_v9 : FVec F S2x500 .f32 := Host.absf main_arg4
  let main_cst_2 : FVec F S_ .f32 := constant S_ .f32 0x7F800000#32
  let main_v10 : FVec F S2x500 .f32 := broadcastInDim S2x500 ![] bcast_S_S2x500 main_cst_2
  let main_v11 : IVec S2x500 1 := cmpf .olt main_v9 main_v10
  let main_c_3 : IVec S_ 1 := constantI S_ 1 1#1
  let main_v12 : IVec S_ 1 := (fun x v => Host.reduce IntOp.andi x v reducesTo_S2x500_S_d0_1 h_S_) main_v11 main_c_3
  let main_v13 : IVec S_ 1 := andi main_v8 main_v12
  let main_v14 : FVec F S2x500 .f32 := Host.absf main_arg5
  let main_cst_4 : FVec F S_ .f32 := constant S_ .f32 0x7F800000#32
  let main_v15 : FVec F S2x500 .f32 := broadcastInDim S2x500 ![] bcast_S_S2x500 main_cst_4
  let main_v16 : IVec S2x500 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S2x50000x2000 : Shape := ⟨3, ![2, 50000, 2000]⟩
abbrev S1600000 : Shape := ⟨1, ![1600000]⟩
abbrev S2x2000x500 : Shape := ⟨3, ![2, 2000, 500]⟩
abbrev S2x500 : Shape := ⟨2, ![2, 500]⟩
abbrev S2x500x128 : Shape := ⟨3, ![2, 500, 128]⟩
abbrev S2x128 : Shape := ⟨2, ![2, 128]⟩
abbrev S2x128x64 : Shape := ⟨3, ![2, 128, 64]⟩
abbrev S2x64 : Shape := ⟨2, ![2, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S50000x64 : Shape := ⟨2, ![50000, 64]⟩
abbrev S2x1000x2000 : Shape := ⟨3, ![2, 1000, 2000]⟩
abbrev S1000x64 : Shape := ⟨2, ![1000, 64]⟩
abbrev S1x1000x2000 : Shape := ⟨3, ![1, 1000, 2000]⟩
abbrev S1000x2000 : Shape := ⟨2, ![1000, 2000]⟩
abbrev S1x2000x500 : Shape := ⟨3, ![1, 2000, 500]⟩
abbrev S2000x500 : Shape := ⟨2, ![2000, 500]⟩
abbrev S1000x500 : Shape := ⟨2, ![1000, 500]⟩
abbrev S1x500 : Shape := ⟨2, ![1, 500]⟩
abbrev S500 : Shape := ⟨1, ![500]⟩
abbrev S1x500x128 : Shape := ⟨3, ![1, 500, 128]⟩
abbrev S500x128 : Shape := ⟨2, ![500, 128]⟩
abbrev S1000x128 : Shape := ⟨2, ![1000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S50000x32 : Shape := ⟨2, ![50000, 32]⟩
abbrev S1600000x32 : Shape := ⟨2, ![1600000, 32]⟩
abbrev S1x32 : Shape := ⟨2, ![1, 32]⟩
abbrev S50000x4 : Shape := ⟨2, ![50000, 4]⟩
abbrev S1600000x4 : Shape := ⟨2, ![1600000, 4]⟩
abbrev S1x4 : Shape := ⟨2, ![1, 4]⟩

abbrev nBuf : Space → Nat
  | .hbm => 115
  | .vmem => 18
  | .smem => 0
  | _ => 0

abbrev bufTy : (tb : Table) → Fin (tcTables nBuf tb) → BufTy
  | .hbm, ⟨0, _⟩ => ⟨S2x50000x2000, .f32⟩
  | .hbm, ⟨1, _⟩ => ⟨S1600000, .i32⟩
  | .hbm, ⟨2, _⟩ => ⟨S1600000, .i32⟩
  | .hbm, ⟨3, _⟩ => ⟨S2x2000x500, .f32⟩
  | .hbm, ⟨4, _⟩ => ⟨S2x500, .f32⟩
  | .hbm, ⟨5, _⟩ => ⟨S2x500, .f32⟩
  | .hbm, ⟨6, _⟩ => ⟨S2x500, .f32⟩
  | .hbm, ⟨7, _⟩ => ⟨S2x500, .f32⟩
  | .hbm, ⟨8, _⟩ => ⟨S2x500, .f32⟩
  | .hbm, ⟨9, _⟩ => ⟨S2x500x128, .f32⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S2x128x64, .f32⟩
  | .hbm, ⟨16, _⟩ => ⟨S2x64, .f32⟩
  | .hbm, ⟨17, _⟩ => ⟨S64x64, .f32⟩
  | .hbm, ⟨18, _⟩ => ⟨S64, .f32⟩
  | .hbm, ⟨19, _⟩ => ⟨S64x32, .f32⟩
  | .hbm, ⟨20, _⟩ => ⟨S32, .f32⟩
  | .hbm, ⟨21, _⟩ => ⟨S32x4, .f32⟩
  | .hbm, ⟨22, _⟩ => ⟨S4, .f32⟩
  | .hbm, ⟨23, _⟩ => ⟨S50000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S50000, .f32⟩
  | .hbm, ⟨28, _⟩ => ⟨S1600000x1, .i32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S1600000x1, .i32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000, .f32⟩
  | .hbm, ⟨45, _⟩ => ⟨S50000x1, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S50000x64, .f32⟩
  | .hbm, ⟨60, _⟩ => ⟨S1600000x1, .i32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S50000x32, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x32, .f32⟩
  | .hbm, ⟨82, _⟩ => ⟨S_, .f32⟩
  | .hbm, ⟨83, _⟩ => ⟨S50000x32, .f32⟩
  | .hbm, ⟨84, _⟩ => ⟨S1600000x1, .i32⟩
  | .hbm, ⟨85, _⟩ => ⟨S50000x32, .f32⟩
  | .hbm, ⟨86, _⟩ => ⟨S50000x32, .f32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x32, .f32⟩
  | .hbm, ⟨91, _⟩ => ⟨S_, .f32⟩
  | .hbm, ⟨92, _⟩ => ⟨S50000x32, .f32⟩
  | .hbm, ⟨93, _⟩ => ⟨S50000x32, .f32⟩
  | .hbm, ⟨94, _⟩ => ⟨S50000x32, .f32⟩
  | .hbm, ⟨95, _⟩ => ⟨S50000x32, .f32⟩
  | .hbm, ⟨96, _⟩ => ⟨S50000x4, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x4, .f32⟩
  | .hbm, ⟨106, _⟩ => ⟨S_, .f32⟩
  | .hbm, ⟨107, _⟩ => ⟨S50000x4, .f32⟩
  | .hbm, ⟨108, _⟩ => ⟨S1600000x1, .i32⟩
  | .hbm, ⟨109, _⟩ => ⟨S50000x4, .f32⟩
  | .hbm, ⟨110, _⟩ => ⟨S50000x4, .f32⟩
  | .hbm, ⟨111, _⟩ => ⟨S50000x4, .f32⟩
  | .hbm, ⟨112, _⟩ => ⟨S1x4, .f32⟩
  | .hbm, ⟨113, _⟩ => ⟨S50000x4, .f32⟩
  | .hbm, ⟨114, _⟩ => ⟨S50000x4, .f32⟩
  | .local _ .vmem, ⟨0, _⟩ => ⟨S2x1000x2000, .f32⟩
  | .local _ .vmem, ⟨1, _⟩ => ⟨S2x1000x2000, .f32⟩
  | .local _ .vmem, ⟨2, _⟩ => ⟨S2x2000x500, .f32⟩
  | .local _ .vmem, ⟨3, _⟩ => ⟨S2x500, .f32⟩
  | .local _ .vmem, ⟨4, _⟩ => ⟨S2x500, .f32⟩
  | .local _ .vmem, ⟨5, _⟩ => ⟨S2x500, .f32⟩
  | .local _ .vmem, ⟨6, _⟩ => ⟨S2x500, .f32⟩
  | .local _ .vmem, ⟨7, _⟩ => ⟨S2x500, .f32⟩
  | .local _ .vmem, ⟨8, _⟩ => ⟨S2x500x128, .f32⟩
  | .local _ .vmem, ⟨9, _⟩ => ⟨S2x128, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S2x128x64, .f32⟩
  | .local _ .vmem, ⟨15, _⟩ => ⟨S2x64, .f32⟩
  | .local _ .vmem, ⟨16, _⟩ => ⟨S1000x64, .f32⟩
  | .local _ .vmem, ⟨17, _⟩ => ⟨S1000x64, .f32⟩
  | _, _ => ⟨S2x50000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_cst_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call2_cst : Ref sig .tc := ⟨.hbm, 67, rfl⟩
abbrev main_call2_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_6 : Ref sig .tc := ⟨.hbm, 73, rfl⟩
abbrev main_v36 : Ref sig .tc := ⟨.hbm, 74, rfl⟩
abbrev main_v37 : Ref sig .tc := ⟨.hbm, 75, rfl⟩
abbrev main_c_7 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_8 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call3_cst : Ref sig .tc := ⟨.hbm, 91, rfl⟩
abbrev main_call3_v0 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_9 : Ref sig .tc := ⟨.hbm, 97, rfl⟩
abbrev main_v55 : Ref sig .tc := ⟨.hbm, 98, rfl⟩
abbrev main_v56 : Ref sig .tc := ⟨.hbm, 99, rfl⟩
abbrev main_c_10 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_11 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2000x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x500x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1000x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S2x1000x2000_S1x1000x2000_0_0_0 : ∀ a, (![0, 0, 0] : Fin 3 → Nat) a + S1x1000x2000.size a ≤ S2x1000x2000.size a
  h_S1x1000x2000 : 0 < S1x1000x2000.numel
  shapeCasts_S1x1000x2000_S1000x2000 : S1x1000x2000.ShapeCasts S1000x2000
  bitsLt_bf16_f32 : FTy.bits .bf16 < FTy.bits .f32
  inb_S2x2000x500_S1x2000x500_0_0_0 : ∀ a, (![0, 0, 0] : Fin 3 → Nat) a + S1x2000x500.size a ≤ S2x2000x500.size a
  h_S1x2000x500 : 0 < S1x2000x500.numel
  shapeCasts_S1x2000x500_S2000x500 : S1x2000x500.ShapeCasts S2000x500
  inb_S2x500_S1x500_0_0 : ∀ a, (![0, 0] : Fin 2 → Nat) a + S1x500.size a ≤ S2x500.size a
  h_S1x500 : 0 < S1x500.numel
  shapeCasts_S1x500_S500 : S1x500.ShapeCasts S500
  shapeCasts_S500_S1x500 : S500.ShapeCasts S1x500
  broadcasts_S1x500_S1000x500 : S1x500.Broadcasts S1000x500
  inb_S2x500x128_S1x500x128_0_0_0 : ∀ a, (![0, 0, 0] : Fin 3 → Nat) a + S1x500x128.size a ≤ S2x500x128.size a
  h_S1x500x128 : 0 < S1x500x128.numel
  shapeCasts_S1x500x128_S500x128 : S1x500x128.ShapeCasts S500x128
  inb_S2x128_S1x128_0_0 : ∀ a, (![0, 0] : Fin 2 → Nat) a + S1x128.size a ≤ S2x128.size a
  h_S1x128 : 0 < S1x128.numel
  shapeCasts_S1x128_S128 : S1x128.ShapeCasts S128
  shapeCasts_S128_S1x128 : S128.ShapeCasts S1x128
  broadcasts_S1x128_S1000x128 : S1x128.Broadcasts S1000x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  broadcasts_S1x64_S1000x64 : S1x64.Broadcasts S1000x64
  inb_S2x1000x2000_S1x1000x2000_1_0_0 : ∀ a, (![1, 0, 0] : Fin 3 → Nat) a + S1x1000x2000.size a ≤ S2x1000x2000.size a
  inb_S2x2000x500_S1x2000x500_1_0_0 : ∀ a, (![1, 0, 0] : Fin 3 → Nat) a + S1x2000x500.size a ≤ S2x2000x500.size a
  inb_S2x500_S1x500_1_0 : ∀ a, (![1, 0] : Fin 2 → Nat) a + S1x500.size a ≤ S2x500.size a
  inb_S2x500x128_S1x500x128_1_0_0 : ∀ a, (![1, 0, 0] : Fin 3 → Nat) a + S1x500x128.size a ≤ S2x500x128.size a
  inb_S2x128_S1x128_1_0 : ∀ a, (![1, 0] : Fin 2 → Nat) a + S1x128.size a ≤ S2x128.size a
  inb_S2x128x64_S1x128x64_1_0_0 : ∀ a, (![1, 0, 0] : Fin 3 → Nat) a + S1x128x64.size a ≤ S2x128x64.size a
  inb_S2x64_S1x64_1_0 : ∀ a, (![1, 0] : Fin 2 → Nat) a + S1x64.size a ≤ S2x64.size a
  inb_S1000x64_S1000x64_0_0 : ∀ a, (![0, 0] : Fin 2 → Nat) a + S1000x64.size a ≤ S1000x64.size a
  h_S1000x64 : 0 < S1000x64.numel
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x4 : S_.BroadcastsInDim S50000x4 (![] : Fin 0 → Fin S50000x4.rank)
  bcast_S50000x1_S50000x4_0_1 : S50000x1.BroadcastsInDim S50000x4 (![0, 1] : Fin 2 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S1000x2000_S2000x500_S1000x500_1_0_0_1_n_n_wf : DotDims.WF S1000x2000 S2000x500 S1000x500 [1] [0] [0] [1] [] []
  dot_S1000x500_S500x128_S1000x128_1_0_0_1_n_n_wf : DotDims.WF S1000x500 S500x128 S1000x128 [1] [0] [0] [1] [] []
  dot_S1000x128_S128x64_S1000x64_1_0_0_1_n_n_wf : DotDims.WF S1000x128 S128x64 S1000x64 [1] [0] [0] [1] [] []
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x32_S50000x32_1_0_0_1_n_n_wf : DotDims.WF S50000x64 S64x32 S50000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x32_S32x4_S50000x4_1_0_0_1_n_n_wf : DotDims.WF S50000x32 S32x4 S50000x4 [1] [0] [0] [1] [] []
  gather_S50000x4_S1600000x1_S1600000x4_1_0_n_n_0_1_14_wf : GatherDims.WF S50000x4 S1600000x1 S1600000x4 [1] [0] [] [0] [] 1 ![1, 4]
  scatter_S50000x4_S1600000x1_S1600000x4_1_0_0_1_wf : ScatterDims.WF S50000x4 S1600000x1 S1600000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1000x2000.size a ≤ S2x50000x2000.size a
  hwx0_0 : ∀ i : grid0.Coords, EltTy.bits .f32 = 32 ∨ (Rect.block (s := S2x50000x2000) S2x1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2000x500.size a ≤ S2x2000x500.size a
  hwx0_1 : ∀ i : grid0.Coords, EltTy.bits .f32 = 32 ∨ (Rect.block (s := S2x2000x500) S2x2000x500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x500.size a ≤ S2x500.size a
  hwx0_2 : ∀ i : grid0.Coords, EltTy.bits .f32 = 32 ∨ (Rect.block (s := S2x500) S2x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x500.size a ≤ S2x500.size a
  hwx0_3 : ∀ i : grid0.Coords, EltTy.bits .f32 = 32 ∨ (Rect.block (s := S2x500) S2x500.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x500.size a ≤ S2x500.size a
  hwx0_4 : ∀ i : grid0.Coords, EltTy.bits .f32 = 32 ∨ (Rect.block (s := S2x500) S2x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x500.size a ≤ S2x500.size a
  hwx0_5 : ∀ i : grid0.Coords, EltTy.bits .f32 = 32 ∨ (Rect.block (s := S2x500) S2x500.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x500.size a ≤ S2x500.size a
  hwx0_6 : ∀ i : grid0.Coords, EltTy.bits .f32 = 32 ∨ (Rect.block (s := S2x500) S2x500.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x500x128.size a ≤ S2x500x128.size a
  hwx0_7 : ∀ i : grid0.Coords, EltTy.bits .f32 = 32 ∨ (Rect.block (s := S2x500x128) S2x500x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x128.size a ≤ S2x128.size a
  hwx0_8 : ∀ i : grid0.Coords, EltTy.bits .f32 = 32 ∨ (Rect.block (s := S2x128) S2x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x128.size a ≤ S2x128.size a
  hwx0_9 : ∀ i : grid0.Coords, EltTy.bits .f32 = 32 ∨ (Rect.block (s := S2x128) S2x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x128.size a ≤ S2x128.size a
  hwx0_10 : ∀ i : grid0.Coords, EltTy.bits .f32 = 32 ∨ (Rect.block (s := S2x128) S2x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x128.size a ≤ S2x128.size a
  hwx0_11 : ∀ i : grid0.Coords, EltTy.bits .f32 = 32 ∨ (Rect.block (s := S2x128) S2x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x128.size a ≤ S2x128.size a
  hwx0_12 : ∀ i : grid0.Coords, EltTy.bits .f32 = 32 ∨ (Rect.block (s := S2x128) S2x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x128x64.size a ≤ S2x128x64.size a
  hwx0_13 : ∀ i : grid0.Coords, EltTy.bits .f32 = 32 ∨ (Rect.block (s := S2x128x64) S2x128x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x64.size a ≤ S2x64.size a
  hwx0_14 : ∀ i : grid0.Coords, EltTy.bits .f32 = 32 ∨ (Rect.block (s := S2x64) S2x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x64.size a ≤ S50000x64.size a
  hwx0_15 : ∀ i : grid0.Coords, EltTy.bits .f32 = 32 ∨ (Rect.block (s := S50000x64) S1000x64.size (cc0_transform_15 i) (hinb0_15 i)).WholeWords (EltTy.packing .f32)

variable [Facts₀]

def dot_S1000x2000_S2000x500_S1000x500_1_0_0_1_n_n : DotDims S1000x2000 S2000x500 S1000x500 where
  lhsContracting := [1]
  rhsContracting := [0]
  lhsNonContracting := [0]
  rhsNonContracting := [1]
  lhsBatch := []
  rhsBatch := []
  wf := dot_S1000x2000_S2000x500_S1000x500_1_0_0_1_n_n_wf
def dot_S1000x500_S500x128_S1000x128_1_0_0_1_n_n : DotDims S1000x500 S500x128 S1000x128 where
  lhsContracting := [1]
  rhsContracting := [0]
  lhsNonContracting := [0]
  rhsNonContracting := [1]
  lhsBatch := []
  rhsBatch := []
  wf := dot_S1000x500_S500x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x4_S50000x4_1_0_0_1_n_n : DotDims S50000x32 S32x4 S50000x4 where
  lhsContracting := [1]
  rhsContracting := [0]
  lhsNonContracting := [0]
  rhsNonContracting := [1]
  lhsBatch := []
  rhsBatch := []
  wf := dot_S50000x32_S32x4_S50000x4_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf

abbrev win0_0 : Pipeline.Window sig grid0 :=
  Pipeline.Window.ofSpec (Memref.whole main_arg0) S2x1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x2000x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S2x500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2x500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S2x500x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S2x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S2x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S2x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S2x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S2x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S2x128x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S2x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S1000x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S2x50000x2000 : Shape := ⟨3, ![2, 50000, 2000]⟩
abbrev S1600000 : Shape := ⟨1, ![1600000]⟩
abbrev S2x2000x500 : Shape := ⟨3, ![2, 2000, 500]⟩
abbrev S2x500 : Shape := ⟨2, ![2, 500]⟩
abbrev S2x500x128 : Shape := ⟨3, ![2, 500, 128]⟩
abbrev S2x128 : Shape := ⟨2, ![2, 128]⟩
abbrev S2x128x64 : Shape := ⟨3, ![2, 128, 64]⟩
abbrev S2x64 : Shape := ⟨2, ![2, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S2x50000x500 : Shape := ⟨3, ![2, 50000, 500]⟩
abbrev S2x1x500 : Shape := ⟨3, ![2, 1, 500]⟩
abbrev S_ : Shape := ⟨0, ![]⟩
abbrev S2x50000x128 : Shape := ⟨3, ![2, 50000, 128]⟩
abbrev S2x1x128 : Shape := ⟨3, ![2, 1, 128]⟩
abbrev S2x50000x64 : Shape := ⟨3, ![2, 50000, 64]⟩
abbrev S2x1x64 : Shape := ⟨3, ![2, 1, 64]⟩
abbrev S50000x64 : Shape := ⟨2, ![50000, 64]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x64 : Shape := ⟨2, ![1, 64]⟩
abbrev S50000x32 : Shape := ⟨2, ![50000, 32]⟩
abbrev S1600000x32 : Shape := ⟨2, ![1600000, 32]⟩
abbrev S1x32 : Shape := ⟨2, ![1, 32]⟩
abbrev S50000x4 : Shape := ⟨2, ![50000, 4]⟩
abbrev S1600000x4 : Shape := ⟨2, ![1600000, 4]⟩
abbrev S1x4 : Shape := ⟨2, ![1, 4]⟩

abbrev nBuf : Space → Nat
  | .hbm => 161
  | .vmem => 0
  | .smem => 0
  | _ => 0

abbrev hbmTy0_0 (i : Nat) : BufTy := match i % 128 with
  | 0 => ⟨S2x50000x2000, .f32⟩
  | 1 => ⟨S1600000, .i32⟩
  | 2 => ⟨S1600000, .i32⟩
  | 3 => ⟨S2x2000x500, .f32⟩
  | 4 => ⟨S2x500, .f32⟩
  | 5 => ⟨S2x500, .f32⟩
  | 6 => ⟨S2x500, .f32⟩
  | 7 => ⟨S2x500, .f32⟩
  | 8 => ⟨S2x500, .f32⟩
  | 9 => ⟨S2x500x128, .f32⟩
  | 10 => ⟨S2x128, .f32⟩
  | 11 => ⟨S2x128, .f32⟩
  | 12 => ⟨S2x128, .f32⟩
  | 13 => ⟨S2x128, .f32⟩
  | 14 => ⟨S2x128, .f32⟩
  | 15 => ⟨S2x128x64, .f32⟩
  | 16 => ⟨S2x64, .f32⟩
  | 17 => ⟨S64x64, .f32⟩
  | 18 => ⟨S64, .f32⟩
  | 19 => ⟨S64x32, .f32⟩
  | 20 => ⟨S32, .f32⟩
  | 21 => ⟨S32x4, .f32⟩
  | 22 => ⟨S4, .f32⟩
  | 23 => ⟨S2x50000x500, .f32⟩
  | 24 => ⟨S2x1x500, .f32⟩
  | 25 => ⟨S2x50000x500, .f32⟩
  | 26 => ⟨S2x50000x500, .f32⟩
  | 27 => ⟨S2x1x500, .f32⟩
  | 28 => ⟨S2x50000x500, .f32⟩
  | 29 => ⟨S2x50000x500, .f32⟩
  | 30 => ⟨S2x1x500, .f32⟩
  | 31 => ⟨S2x1x500, .f32⟩
  | 32 => ⟨S_, .f32⟩
  | 33 => ⟨S2x1x500, .f32⟩
  | 34 => ⟨S2x1x500, .f32⟩
  | 35 => ⟨S2x1x500, .f32⟩
  | 36 => ⟨S2x1x500, .f32⟩
  | 37 => ⟨S2x50000x500, .f32⟩
  | 38 => ⟨S2x50000x500, .f32⟩
  | 39 => ⟨S2x1x500, .f32⟩
  | 40 => ⟨S2x50000x500, .f32⟩
  | 41 => ⟨S2x50000x500, .f32⟩
  | 42 => ⟨S2x50000x128, .f32⟩
  | 43 => ⟨S2x1x128, .f32⟩
  | 44 => ⟨S2x50000x128, .f32⟩
  | 45 => ⟨S2x50000x128, .f32⟩
  | 46 => ⟨S2x1x128, .f32⟩
  | 47 => ⟨S2x50000x128, .f32⟩
  | 48 => ⟨S2x50000x128, .f32⟩
  | 49 => ⟨S2x1x128, .f32⟩
  | 50 => ⟨S2x1x128, .f32⟩
  | 51 => ⟨S_, .f32⟩
  | 52 => ⟨S2x1x128, .f32⟩
  | 53 => ⟨S2x1x128, .f32⟩
  | 54 => ⟨S2x1x128, .f32⟩
  | 55 => ⟨S2x1x128, .f32⟩
  | 56 => ⟨S2x50000x128, .f32⟩
  | 57 => ⟨S2x50000x128, .f32⟩
  | 58 => ⟨S2x1x128, .f32⟩
  | 59 => ⟨S2x50000x128, .f32⟩
  | 60 => ⟨S2x50000x128, .f32⟩
  | 61 => ⟨S2x50000x64, .f32⟩
  | 62 => ⟨S2x1x64, .f32⟩
  | 63 => ⟨S2x50000x64, .f32⟩
  | 64 => ⟨S2x50000x64, .f32⟩
  | 65 => ⟨S_, .f32⟩
  | 66 => ⟨S50000x64, .f32⟩
  | 67 => ⟨S_, .f32⟩
  | 68 => ⟨S50000x64, .f32⟩
  | 69 => ⟨S50000x64, .f32⟩
  | 70 => ⟨S_, .f32⟩
  | 71 => ⟨S1600000, .f32⟩
  | 72 => ⟨S_, .f32⟩
  | 73 => ⟨S50000, .f32⟩
  | 74 => ⟨S1600000x1, .i32⟩
  | 75 => ⟨S50000, .f32⟩
  | 76 => ⟨S_, .f32⟩
  | 77 => ⟨S_, .f32⟩
  | 78 => ⟨S50000, .f32⟩
  | 79 => ⟨S50000, .f32⟩
  | 80 => ⟨S_, .f32⟩
  | 81 => ⟨S50000, .f32⟩
  | 82 => ⟨S1600000x1, .i32⟩
  | 83 => ⟨S50000, .f32⟩
  | 84 => ⟨S_, .f32⟩
  | 85 => ⟨S_, .f32⟩
  | 86 => ⟨S50000, .f32⟩
  | 87 => ⟨S50000, .f32⟩
  | 88 => ⟨S50000, .f32⟩
  | 89 => ⟨S50000x1, .f32⟩
  | 90 => ⟨S50000, .f32⟩
  | 91 => ⟨S50000x1, .f32⟩
  | 92 => ⟨S50000x64, .f32⟩
  | 93 => ⟨S50000x64, .f32⟩
  | 94 => ⟨S50000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .f32⟩
  | 105 => ⟨S50000x64, .f32⟩
  | 106 => ⟨S1600000x1, .i32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S50000x64, .f32⟩
  | 118 => ⟨S50000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S2x50000x2000, .f32⟩

abbrev hbmTy0_1 (i : Nat) : BufTy := match i % 128 with
  | 0 => ⟨S_, .f32⟩
  | 1 => ⟨S50000x32, .f32⟩
  | 2 => ⟨S1600000x1, .i32⟩
  | 3 => ⟨S50000x32, .f32⟩
  | 4 => ⟨S50000x32, .f32⟩
  | 5 => ⟨S50000x32, .f32⟩
  | 6 => ⟨S1x32, .f32⟩
  | 7 => ⟨S50000x32, .f32⟩
  | 8 => ⟨S50000x32, .f32⟩
  | 9 => ⟨S_, .f32⟩
  | 10 => ⟨S50000x32, .f32⟩
  | 11 => ⟨S50000x32, .f32⟩
  | 12 => ⟨S50000x32, .f32⟩
  | 13 => ⟨S50000x32, .f32⟩
  | 14 => ⟨S50000x4, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x4, .f32⟩
  | 24 => ⟨S_, .f32⟩
  | 25 => ⟨S50000x4, .f32⟩
  | 26 => ⟨S1600000x1, .i32⟩
  | 27 => ⟨S50000x4, .f32⟩
  | 28 => ⟨S50000x4, .f32⟩
  | 29 => ⟨S50000x4, .f32⟩
  | 30 => ⟨S1x4, .f32⟩
  | 31 => ⟨S50000x4, .f32⟩
  | 32 => ⟨S50000x4, .f32⟩
  | _ => ⟨S2x50000x2000, .f32⟩

abbrev hbmTy (i : Nat) : BufTy := match i / 128 with
  | 0 => hbmTy0_0 i
  | 1 => hbmTy0_1 i
  | _ => ⟨S2x50000x2000, .f32⟩

abbrev bufTy : (tb : Table) → Fin (tcTables nBuf tb) → BufTy
  | .hbm, ⟨i, _⟩ => hbmTy i
  | _, _ => ⟨S2x50000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_1 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_cst_4 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_call0_v0 : Ref sig .tc := ⟨.hbm, 77, rfl⟩
abbrev main_call0_v1 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_7 : Ref sig .tc := ⟨.hbm, 84, rfl⟩
abbrev main_call1_v0 : Ref sig .tc := ⟨.hbm, 85, rfl⟩
abbrev main_call1_v1 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c : Ref sig .tc := ⟨.hbm, 95, rfl⟩
abbrev main_v59 : Ref sig .tc := ⟨.hbm, 96, rfl⟩
abbrev main_v60 : Ref sig .tc := ⟨.hbm, 97, rfl⟩
abbrev main_c_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_9 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call2_cst : Ref sig .tc := ⟨.hbm, 113, rfl⟩
abbrev main_call2_v0 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_10 : Ref sig .tc := ⟨.hbm, 119, rfl⟩
abbrev main_v78 : Ref sig .tc := ⟨.hbm, 120, rfl⟩
abbrev main_v79 : Ref sig .tc := ⟨.hbm, 121, rfl⟩
abbrev main_c_11 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_12 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_call3_cst : Ref sig .tc := ⟨.hbm, 137, rfl⟩
abbrev main_call3_v0 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_13 : Ref sig .tc := ⟨.hbm, 143, rfl⟩
abbrev main_v97 : Ref sig .tc := ⟨.hbm, 144, rfl⟩
abbrev main_v98 : Ref sig .tc := ⟨.hbm, 145, rfl⟩
abbrev main_c_14 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_15 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩

abbrev nD : Nat := 1
abbrev τ : Topo := Topo.v7x

variable {F : FTy → Type} [FloatOps F]

class Facts₀ : Prop where
  bcast_S2x500_S2x1x500_0_2 : S2x500.BroadcastsInDim S2x1x500 (![0, 2] : Fin 2 → Fin S2x1x500.rank)
  bcast_S2x1x500_S2x50000x500_0_1_2 : S2x1x500.BroadcastsInDim S2x50000x500 (![0, 1, 2] : Fin 3 → Fin S2x50000x500.rank)
  bcast_S_S2x1x500 : S_.BroadcastsInDim S2x1x500 (![] : Fin 0 → Fin S2x1x500.rank)
  bcast_S2x128_S2x1x128_0_2 : S2x128.BroadcastsInDim S2x1x128 (![0, 2] : Fin 2 → Fin S2x1x128.rank)
  bcast_S2x1x128_S2x50000x128_0_1_2 : S2x1x128.BroadcastsInDim S2x50000x128 (![0, 1, 2] : Fin 3 → Fin S2x50000x128.rank)
  bcast_S_S2x1x128 : S_.BroadcastsInDim S2x1x128 (![] : Fin 0 → Fin S2x1x128.rank)
  bcast_S2x64_S2x1x64_0_2 : S2x64.BroadcastsInDim S2x1x64 (![0, 2] : Fin 2 → Fin S2x1x64.rank)
  bcast_S2x1x64_S2x50000x64_0_1_2 : S2x1x64.BroadcastsInDim S2x50000x64 (![0, 1, 2] : Fin 3 → Fin S2x50000x64.rank)
  reducesTo_S2x50000x64_S50000x64_d0 : S2x50000x64.ReducesTo [0] S50000x64
  h_S_ : 0 < S_.numel
  bcast_S_S50000x64 : S_.BroadcastsInDim S50000x64 (![] : Fin 0 → Fin S50000x64.rank)
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x4 : S_.BroadcastsInDim S50000x4 (![] : Fin 0 → Fin S50000x4.rank)
  bcast_S50000x1_S50000x4_0_1 : S50000x1.BroadcastsInDim S50000x4 (![0, 1] : Fin 2 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S2x50000x2000_S2x2000x500_S2x50000x500_2_1_1_2_0_0_wf : DotDims.WF S2x50000x2000 S2x2000x500 S2x50000x500 [2] [1] [1] [2] [0] [0]
  dot_S2x50000x500_S2x500x128_S2x50000x128_2_1_1_2_0_0_wf : DotDims.WF S2x50000x500 S2x500x128 S2x50000x128 [2] [1] [1] [2] [0] [0]
  dot_S2x50000x128_S2x128x64_S2x50000x64_2_1_1_2_0_0_wf : DotDims.WF S2x50000x128 S2x128x64 S2x50000x64 [2] [1] [1] [2] [0] [0]
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x32_S50000x32_1_0_0_1_n_n_wf : DotDims.WF S50000x64 S64x32 S50000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x32_S32x4_S50000x4_1_0_0_1_n_n_wf : DotDims.WF S50000x32 S32x4 S50000x4 [1] [0] [0] [1] [] []
  gather_S50000x4_S1600000x1_S1600000x4_1_0_n_n_0_1_14_wf : GatherDims.WF S50000x4 S1600000x1 S1600000x4 [1] [0] [] [0] [] 1 ![1, 4]
  scatter_S50000x4_S1600000x1_S1600000x4_1_0_0_1_wf : ScatterDims.WF S50000x4 S1600000x1 S1600000x4 [1] [0] [0] 1

variable [Facts₀]

def dot_S2x50000x2000_S2x2000x500_S2x50000x500_2_1_1_2_0_0 : DotDims S2x50000x2000 S2x2000x500 S2x50000x500 where
  lhsContracting := [2]
  rhsContracting := [1]
  lhsNonContracting := [1]
  rhsNonContracting := [2]
  lhsBatch := [0]
  rhsBatch := [0]
  wf := dot_S2x50000x2000_S2x2000x500_S2x50000x500_2_1_1_2_0_0_wf
def dot_S2x50000x500_S2x500x128_S2x50000x128_2_1_1_2_0_0 : DotDims S2x50000x500 S2x500x128 S2x50000x128 where
  lhsContracting := [2]
  rhsContracting := [1]
  lhsNonContracting := [1]
  rhsNonContracting := [2]
  lhsBatch := [0]
  rhsBatch := [0]
  wf := dot_S2x50000x500_S2x500x128_S2x50000x128_2_1_1_2_0_0_wf
def dot_S2x50000x128_S2x128x64_S2x50000x64_2_1_1_2_0_0 : DotDims S2x50000x128 S2x128x64 S2x50000x64 where
  lhsContracting := [2]
  rhsContracting := [1]
  lhsNonContracting := [1]
  rhsNonContracting := [2]
  lhsBatch := [0]
  rhsBatch := [0]
  wf := dot_S2x50000x128_S2x128x64_S2x50000x64_2_1_1_2_0_0_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x4_S50000x4_1_0_0_1_n_n : DotDims S50000x32 S32x4 S50000x4 where
  lhsContracting := [1]
  rhsContracting := [0]
  lhsNonContracting := [0]
  rhsNonContracting := [1]
  lhsBatch := []
  rhsBatch := []
  wf := dot_S50000x32_S32x4_S50000x4_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4_S1600000x1_S1600000x4_1_0_0_1 : ScatterDims S50000x4 S1600000x1 S1600000x4 where
  updateWindowDims := [1]
  insertedWindowDims := [0]
  scatterDimsToOperandDims := [0]
  indexVectorDim := 1
  wf := scatter_S50000x4_S1600000x1_S1600000x4_1_0_0_1_wf

class Facts : Prop extends Facts₀ where

variable [Facts]
-- ==== Proof.BodyDefB.lean ====
/-
  What one grid point of the encoder computes, as a pure function of the contents of its fifteen input buffers.

  The point's body reads, for each modality μ ∈ {0, 1}, slab μ of every buffer (the rows of h it was handed, the
  three weight matrices, the biases and the four batch-norm vectors of both normalisations), runs
  matmul → bias → batch-norm twice, then the decoder matmul and its bias, adds the two modalities into a zero
  accumulator and halves the sum. The arithmetic of each stretch of the body is the generated skeleton's payload
  term; this module only composes those terms along the loads, each load being the buffer read through the literal
  rectangle of its slab. The block stored in the output buffer is exactly this value (one store of the whole block).
-/
import proofs.«120134_j4784593567773_1_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-! ## The slabs: slab μ of each buffer, as a rectangle of the buffer's shape -/

abbrev rH0 : Rect S2x1000x2000 := Rect.unit (s := S2x1000x2000) ![0, 0, 0] S1x1000x2000.size Gen.inb_S2x1000x2000_S1x1000x2000_0_0_0
abbrev rH1 : Rect S2x1000x2000 := Rect.unit (s := S2x1000x2000) ![1, 0, 0] S1x1000x2000.size Gen.inb_S2x1000x2000_S1x1000x2000_1_0_0
abbrev rW10 : Rect S2x2000x500 := Rect.unit (s := S2x2000x500) ![0, 0, 0] S1x2000x500.size Gen.inb_S2x2000x500_S1x2000x500_0_0_0
abbrev rW11 : Rect S2x2000x500 := Rect.unit (s := S2x2000x500) ![1, 0, 0] S1x2000x500.size Gen.inb_S2x2000x500_S1x2000x500_1_0_0
abbrev rA0 : Rect S2x500 := Rect.unit (s := S2x500) ![0, 0] S1x500.size Gen.inb_S2x500_S1x500_0_0
abbrev rA1 : Rect S2x500 := Rect.unit (s := S2x500) ![1, 0] S1x500.size Gen.inb_S2x500_S1x500_1_0
abbrev rW20 : Rect S2x500x128 := Rect.unit (s := S2x500x128) ![0, 0, 0] S1x500x128.size Gen.inb_S2x500x128_S1x500x128_0_0_0
abbrev rW21 : Rect S2x500x128 := Rect.unit (s := S2x500x128) ![1, 0, 0] S1x500x128.size Gen.inb_S2x500x128_S1x500x128_1_0_0
abbrev rB0 : Rect S2x128 := Rect.unit (s := S2x128) ![0, 0] S1x128.size Gen.inb_S2x128_S1x128_0_0
abbrev rB1 : Rect S2x128 := Rect.unit (s := S2x128) ![1, 0] S1x128.size Gen.inb_S2x128_S1x128_1_0
abbrev rWd0 : Rect S2x128x64 := Rect.unit (s := S2x128x64) ![0, 0, 0] S1x128x64.size Gen.inb_S2x128x64_S1x128x64_0_0_0
abbrev rWd1 : Rect S2x128x64 := Rect.unit (s := S2x128x64) ![1, 0, 0] S1x128x64.size Gen.inb_S2x128x64_S1x128x64_1_0_0
abbrev rC0 : Rect S2x64 := Rect.unit (s := S2x64) ![0, 0] S1x64.size Gen.inb_S2x64_S1x64_0_0
abbrev rC1 : Rect S2x64 := Rect.unit (s := S2x64) ![1, 0] S1x64.size Gen.inb_S2x64_S1x64_1_0
/-- The whole output block. -/
abbrev rOut : Rect S1000x64 := Rect.unit (s := S1000x64) ![0, 0] S1000x64.size Gen.inb_S1000x64_S1000x64_0_0

/-! ## The point's value -/

/-- Modality 0 through both normalised layers and the decoder, added to the zero accumulator:
    `0 + (bn₂(bn₁(h₀·W1₀ + b1₀)·W2₀ + b2₀)·Wd₀ + bd₀)`, from slab 0 of each buffer. The buffers are, in order,
    h, W1, b1, g1, be1, m1, v1, W2, b2, g2, be2, m2, v2, Wd, bd. -/
def half0 (x0 : Vec F S2x1000x2000 .f32) (x1 : Vec F S2x2000x500 .f32) (x2 x3 x4 x5 x6 : Vec F S2x500 .f32)
    (x7 : Vec F S2x500x128 .f32) (x8 x9 x10 x11 x12 : Vec F S2x128 .f32) (x13 : Vec F S2x128x64 .f32)
    (x14 : Vec F S2x64 .f32) : FVec F S1000x64 .f32 :=
  k0_pay4 (k0_pay1 (F := F))
    (k0_pay2 (View.ld x0 rH0) (View.ld x1 rW10) (View.ld x2 rA0) (View.ld x6 rA0) (View.ld x3 rA0) (View.ld x5 rA0) (View.ld x4 rA0))
    (k0_pay3 (View.ld x7 rW20))
    (View.ld x8 rB0) (View.ld x12 rB0) (View.ld x9 rB0) (View.ld x11 rB0) (View.ld x10 rB0) (View.ld x13 rWd0) (View.ld x14 rC0)

/-- The point's value: modality 1 the same way from slab 1 of each buffer, added to `half0`, the sum halved. -/
def bodyVal (x0 : Vec F S2x1000x2000 .f32) (x1 : Vec F S2x2000x500 .f32) (x2 x3 x4 x5 x6 : Vec F S2x500 .f32)
    (x7 : Vec F S2x500x128 .f32) (x8 x9 x10 x11 x12 : Vec F S2x128 .f32) (x13 : Vec F S2x128x64 .f32)
    (x14 : Vec F S2x64 .f32) : FVec F S1000x64 .f32 :=
  k0_pay6 (half0 x0 x1 x2 x3 x4 x5 x6 x7 x8 x9 x10 x11 x12 x13 x14)
    (k0_pay5 (View.ld x0 rH1) (View.ld x1 rW11) (View.ld x2 rA1) (View.ld x6 rA1) (View.ld x3 rA1) (View.ld x5 rA1) (View.ld x4 rA1) (View.ld x7 rW21))
    (View.ld x8 rB1) (View.ld x12 rB1) (View.ld x9 rB1) (View.ld x11 rB1) (View.ld x10 rB1) (View.ld x13 rWd1) (View.ld x14 rC1)

/-- What the body leaves in the output buffer: its one store, of the whole block. -/
def out15 (x0 : Vec F S2x1000x2000 .f32) (x1 : Vec F S2x2000x500 .f32) (x2 x3 x4 x5 x6 : Vec F S2x500 .f32)
    (x7 : Vec F S2x500x128 .f32) (x8 x9 x10 x11 x12 : Vec F S2x128 .f32) (x13 : Vec F S2x128x64 .f32)
    (x14 : Vec F S2x64 .f32) : Vec F S1000x64 .f32 :=
  View.canon [⟨rOut, bodyVal x0 x1 x2 x3 x4 x5 x6 x7 x8 x9 x10 x11 x12 x13 x14⟩]

/-- The one store covers the block. -/
theorem cover15 (p0 : Vec F S1000x64 .f32) (y : S1000x64.Idx) :
    ∃ pc ∈ ([⟨rOut, p0⟩] : List (View.Piece (Elt F) S1000x64 .f32)), y ∈ pc.1.set :=
  View.cover_of_tiled [⟨rOut, p0⟩] S1000x64.size (by rfl) y

end Cert.Kernel.Hand

end
-- ==== Proof.BodyRunB.lean ====
/-
  One grid point of the encoder, run on whole buffers.

  Handed its fifteen input buffers at contents x0 … x14 and its output buffer at any contents, the body reads slab 0 and
  slab 1 of each input through literal rectangles (and the output buffer once, a value it never uses), computes, and
  stores one whole block; it ends with the inputs as they were and the output buffer at `out15 x0 … x14`, the block
  whose value is `bodyVal`. Nothing else of the machine is touched, so the triple is stated against any continuation.
-/
import proofs.«120134_j4784593567773_1_alg».proof.Proof.BodyDefB
import proofs.«120134_j4784593567773_1_alg».proof.Proof.Gen.Kernel.Launch
import proofs.«120134_j4784593567773_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole buffers: inputs kept, the output buffer left at the one stored block. -/
theorem sound_kernel (c : Dev nD) (E : Set ℕ) (i : grid0.Coords) (arg1 : Memref sig .tc .vmem S2x1000x2000 .f32) (harg1 : arg1.IsWhole) (arg2 : Memref sig .tc .vmem S2x2000x500 .f32) (harg2 : arg2.IsWhole) (arg3 : Memref sig .tc .vmem S2x500 .f32) (harg3 : arg3.IsWhole) (arg4 : Memref sig .tc .vmem S2x500 .f32) (harg4 : arg4.IsWhole) (arg5 : Memref sig .tc .vmem S2x500 .f32) (harg5 : arg5.IsWhole) (arg6 : Memref sig .tc .vmem S2x500 .f32) (harg6 : arg6.IsWhole) (arg7 : Memref sig .tc .vmem S2x500 .f32) (harg7 : arg7.IsWhole) (arg8 : Memref sig .tc .vmem S2x500x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S2x128 .f32) (harg13 : arg13.IsWhole) (arg14 : Memref sig .tc .vmem S2x128x64 .f32) (harg14 : arg14.IsWhole) (arg15 : Memref sig .tc .vmem S2x64 .f32) (harg15 : arg15.IsWhole) (arg16 : Memref sig .tc .vmem S1000x64 .f32) (harg16 : arg16.IsWhole)
    (x0 : Vec F S2x1000x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out15 x0 x1 x2 x3 x4 x5 x6 x7 x8 x9 x10 x11 x12 x13 x14)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__encoder_kernel_eq_skeleton]; unfold cc0__encoder_kernel_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover15 _)

end Cert.Kernel.Hand

end
-- ==== Proof.FrameDataB.lean ====
/-
  The region's proof data: what every staging buffer holds before and after the body at each of the fifty grid points.

  The program is the region followed by host operations, with nothing before it, so the region finds every array as
  launched. Window 0 (h) is re-fetched at every point, block t being rows 1000·t … 1000·t + 999 of both modalities; the
  fourteen parameter windows are fetched once and keep their index, so at every point each input buffer holds its
  window's block of the array as launched. The body leaves the inputs in place and the output buffer at `out15` of
  the input blocks (BodyRun), which is all the library's launch theorem asks of a point.
-/
import proofs.«120134_j4784593567773_1_alg».proof.Proof.BodyRunB
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The nine stretches of host operations after the region, in program order. -/
abbrev tailOps : List (List (HloOp τ sig (Elt F))) :=
  [hostOps1, hostOps1_1, hostOps1_2, hostOps1_3, hostOps1_4, hostOps1_5, hostOps1_6, hostOps1_7, hostOps1_8]

/-- The buffers' contents when the region is entered: no host operation comes before it, so the launch contents. -/
abbrev V0 (c : Dev nD) : Valuation τ sig (Elt F) :=
  StableHlo.after (List.flatten ([] : List (List (HloOp τ sig (Elt F))))) (fun b => m (c, b))
/-- The same read at a reference of the core. -/
abbrev V (c : Dev nD) (b : Ref sig .tc) : Buf (Elt F) ((c : Thread nD τ).loc b) := V0 m c (Proc.devRef .tc b)

/-- The program is the region continued by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall]) (by simp only [List.Forall]) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not: where it is not fetched
    the window's index has not moved, so the block is the one already there. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_in11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_in12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_in13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_in14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Arrays as launched; after the body each input buffer at its block, the output buffer at the stored block; the
    invariant is the untouched rest of the core; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_in12 (c : Dev nD) (t : Fin cfg0.N) : (dats m 0 c).after 12 t = iblk m c 12 t := by dsimp only [dats]
theorem after_in13 (c : Dev nD) (t : Fin cfg0.N) : (dats m 0 c).after 13 t = iblk m c 13 t := by dsimp only [dats]
theorem after_in14 (c : Dev nD) (t : Fin cfg0.N) : (dats m 0 c).after 14 t = iblk m c 14 t := by dsimp only [dats]
theorem after_out (c : Dev nD) (t : Fin cfg0.N) : (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d
theorem before_in9 (c : Dev nD) (t : Fin cfg0.N) (d) : (dats m 0 c).before 9 t d = iblk m c 9 t :=
  before_in9_of m (dats m 0 c) (A_eq m c 9) (after_in9 m c) t d
theorem before_in10 (c : Dev nD) (t : Fin cfg0.N) (d) : (dats m 0 c).before 10 t d = iblk m c 10 t :=
  before_in10_of m (dats m 0 c) (A_eq m c 10) (after_in10 m c) t d
theorem before_in11 (c : Dev nD) (t : Fin cfg0.N) (d) : (dats m 0 c).before 11 t d = iblk m c 11 t :=
  before_in11_of m (dats m 0 c) (A_eq m c 11) (after_in11 m c) t d
theorem before_in12 (c : Dev nD) (t : Fin cfg0.N) (d) : (dats m 0 c).before 12 t d = iblk m c 12 t :=
  before_in12_of m (dats m 0 c) (A_eq m c 12) (after_in12 m c) t d
theorem before_in13 (c : Dev nD) (t : Fin cfg0.N) (d) : (dats m 0 c).before 13 t d = iblk m c 13 t :=
  before_in13_of m (dats m 0 c) (A_eq m c 13) (after_in13 m c) t d
theorem before_in14 (c : Dev nD) (t : Fin cfg0.N) (d) : (dats m 0 c).before 14 t d = iblk m c 14 t :=
  before_in14_of m (dats m 0 c) (A_eq m c 14) (after_in14 m c) t d

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10, before_in11, before_in12, before_in13, before_in14]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_in11, after_in12, after_in13, after_in14, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.TailFactsB.lean ====
import proofs.«120134_j4784593567773_1_alg».proof.Proof.Gen.Kernel.Launch
import Idealize.ShloMosaic.Lib.Pipeline.FrameSuffix

/-!
# The host operations after the region leave the arguments and the windows' arrays alone

After its one region the program runs nine stretches of host operations (91 in all). Each of them writes
exactly one buffer, its own result, and every such result is an HBM buffer whose index is at least 24, whereas
the 23 arguments and the region's output array are the HBM buffers of index 0 … 23. So "is this buffer written
by the tail?" is decided by ONE comparison of indices per operation, not by comparing every operation with
every window: an operation is called *high* when every reference it writes has index ≥ 24, each stretch is a
list of high operations, and every window's array has an index below 24.

From that follow the three facts the frame run around a region asks of the operations after it (they stay
within the unscoped buffers, allocate nothing, and write no array of the pipeline), and the form used to read
an argument back after the tail: a buffer of index below 24 holds after the 91 operations what it held before.
Everything here is stated for any float instance.
-/

set_option maxRecDepth 16384

noncomputable section

namespace Cert.Tail.OfKernel

open Idealize.ShloMosaic Idealize.ShloMosaic.TcCoe
open Cert.Kernel Cert.Kernel.Gen

variable {F : FTy → Type} [FloatOps F]

/-- An operation is *high* when every TensorCore reference it writes has index at least 24 (in this program:
    it is a tensor value computed after the region, not an argument and not the region's output). -/
def High (op : HloOp τ sig (Elt F)) : Prop :=
  ∀ b : Ref sig .tc, Proc.devRef .tc b ∈ op.writes → 24 ≤ b.idx.val

/-- An operation whose only written buffer is the reference `y` is high as soon as `y`'s index is. -/
theorem high_of_writes {op : HloOp τ sig (Elt F)} (y : Ref sig .tc)
    (h : op.writes = {Proc.devRef .tc y}) (hy : 24 ≤ y.idx.val) : High op := by
  intro b hb
  rw [h, Finset.mem_singleton] at hb
  obtain rfl : b = y := Proc.devRef_injective _ hb
  exact hy

/-! ## Each stretch is a list of high operations that allocate nothing -/

theorem high1 : (hostOps1 : List (HloOp τ sig (Elt F))).Forall High := by
  simp only [List.Forall]; repeat' apply And.intro
  all_goals exact high_of_writes _ rfl (by decide)
theorem high1_1 : (hostOps1_1 : List (HloOp τ sig (Elt F))).Forall High := by
  simp only [List.Forall]; repeat' apply And.intro
  all_goals exact high_of_writes _ rfl (by decide)
theorem high1_2 : (hostOps1_2 : List (HloOp τ sig (Elt F))).Forall High := by
  simp only [List.Forall]; repeat' apply And.intro
  all_goals exact high_of_writes _ rfl (by decide)
theorem high1_3 : (hostOps1_3 : List (HloOp τ sig (Elt F))).Forall High := by
  simp only [List.Forall]; repeat' apply And.intro
  all_goals exact high_of_writes _ rfl (by decide)
theorem high1_4 : (hostOps1_4 : List (HloOp τ sig (Elt F))).Forall High := by
  simp only [List.Forall]; repeat' apply And.intro
  all_goals exact high_of_writes _ rfl (by decide)
theorem high1_5 : (hostOps1_5 : List (HloOp τ sig (Elt F))).Forall High := by
  simp only [List.Forall]; repeat' apply And.intro
  all_goals exact high_of_writes _ rfl (by decide)
theorem high1_6 : (hostOps1_6 : List (HloOp τ sig (Elt F))).Forall High := by
  simp only [List.Forall]; repeat' apply And.intro
  all_goals exact high_of_writes _ rfl (by decide)
theorem high1_7 : (hostOps1_7 : List (HloOp τ sig (Elt F))).Forall High := by
  simp only [List.Forall]; repeat' apply And.intro
  all_goals exact high_of_writes _ rfl (by decide)
theorem high1_8 : (hostOps1_8 : List (HloOp τ sig (Elt F))).Forall High := by
  simp only [List.Forall]; repeat' apply And.intro
  all_goals exact high_of_writes _ rfl (by decide)

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor
theorem fresh1_7 : (hostOps1_7 : List (HloOp τ sig (Elt F))).Forall fun op => op.fresh = ∅ := by
  simp only [List.Forall]; repeat' constructor
theorem fresh1_8 : (hostOps1_8 : List (HloOp τ sig (Elt F))).Forall fun op => op.fresh = ∅ := by
  simp only [List.Forall]; repeat' constructor

/-! ## The nine stretches together -/

/-- A property every operation of each of the nine stretches has, every operation of the nine has. -/
theorem forall_stretches {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) (h7 : (hostOps1_7 : List (HloOp τ sig (Elt F))).Forall P)
    (h8 : (hostOps1_8 : List (HloOp τ sig (Elt F))).Forall P) :
    ∀ ops ∈ ([hostOps1, hostOps1_1, hostOps1_2, hostOps1_3, hostOps1_4, hostOps1_5, hostOps1_6, hostOps1_7, hostOps1_8] :
      List (List (HloOp τ sig (Elt F)))), ∀ op ∈ ops, P op := by
  intro ops hops op hop
  simp only [List.mem_cons, List.mem_nil_iff, or_false] at hops
  rcases hops with rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop

/-- Every operation after the region is high. -/
theorem sfx_high : ∀ ops ∈ ([hostOps1, hostOps1_1, hostOps1_2, hostOps1_3, hostOps1_4, hostOps1_5, hostOps1_6, hostOps1_7, hostOps1_8] :
      List (List (HloOp τ sig (Elt F)))), ∀ op ∈ ops,
    ∀ b : Ref sig .tc, Proc.devRef .tc b ∈ op.writes → 24 ≤ b.idx.val :=
  forall_stretches (P := High) high1 high1_1 high1_2 high1_3 high1_4 high1_5 high1_6 high1_7 high1_8

/-- Every window's array is one of the HBM buffers 0 … 23 (an argument, or the region's output). -/
theorem arr_low : ∀ w : Fin 16, (Pipeline.arrRef spec0 w).idx.val < 24 := by decide

/-- The operations after the region touch unscoped TensorCore references only: with nothing prefetched, those are the
    pipeline's arrays and the buffers that bypass the region. -/
theorem sfx_sub : ∀ ops ∈ ([hostOps1, hostOps1_1, hostOps1_2, hostOps1_3, hostOps1_4, hostOps1_5, hostOps1_6, hostOps1_7, hostOps1_8] :
      List (List (HloOp τ sig (Elt F)))), ∀ op ∈ ops,
    op.bufs ⊆ Pipeline.tailRefs sig Pipeline.Prefetch.none spec0 := by
  rw [Pipeline.tailRefs_none spec0 launch0.win.arr_unscoped]
  exact forall_stretches (P := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))
    (List.forall_iff_forall_mem.mpr fun op hop => Pipeline.sub_ucRefs op ((List.forall_iff_forall_mem.mp hostOps1_7_sub) op hop))
    (List.forall_iff_forall_mem.mpr fun op hop => Pipeline.sub_ucRefs op ((List.forall_iff_forall_mem.mp hostOps1_8_sub) op hop))

/-- They allocate nothing. -/
theorem sfx_fresh : ∀ ops ∈ ([hostOps1, hostOps1_1, hostOps1_2, hostOps1_3, hostOps1_4, hostOps1_5, hostOps1_6, hostOps1_7, hostOps1_8] :
      List (List (HloOp τ sig (Elt F)))), ∀ op ∈ ops, op.fresh = ∅ :=
  forall_stretches (P := fun op => op.fresh = ∅) fresh1 fresh1_1 fresh1_2 fresh1_3 fresh1_4 fresh1_5 fresh1_6 fresh1_7 fresh1_8

/-- And write no array of the pipeline: what they write has index ≥ 24, an array's index is below 24. -/
theorem sfx_keeps : ∀ ops ∈ ([hostOps1, hostOps1_1, hostOps1_2, hostOps1_3, hostOps1_4, hostOps1_5, hostOps1_6, hostOps1_7, hostOps1_8] :
      List (List (HloOp τ sig (Elt F)))), ∀ op ∈ ops,
    ∀ w, Proc.devRef .tc (Pipeline.arrRef spec0 w) ∉ op.writes := by
  intro ops hops op hop w hw
  exact absurd (sfx_high ops hops op hop _ hw) (Nat.not_le.mpr (arr_low w))

/-! ## A buffer of index below 24 after the tail -/

/-- Every operation of the flattened tail is high. -/
theorem flat_high : ∀ op ∈ (List.flatten [hostOps1, hostOps1_1, hostOps1_2, hostOps1_3, hostOps1_4, hostOps1_5, hostOps1_6, hostOps1_7, hostOps1_8] :
      List (HloOp τ sig (Elt F))), ∀ b : Ref sig .tc, Proc.devRef .tc b ∈ op.writes → 24 ≤ b.idx.val := by
  intro op hop
  obtain ⟨ops, hops, hop'⟩ := List.mem_flatten.mp hop
  exact sfx_high ops hops op hop'

/-- An argument, or the region's output — any reference of index below 24 — holds after the 91 operations what it held
    before them, from any contents `X` of the buffers. -/
theorem after_low (X : Valuation τ sig (Elt F)) (b : Ref sig .tc) (hb : b.idx.val < 24) :
    StableHlo.after (List.flatten [hostOps1, hostOps1_1, hostOps1_2, hostOps1_3, hostOps1_4, hostOps1_5, hostOps1_6, hostOps1_7, hostOps1_8]) X
      (Proc.devRef .tc b) = X (Proc.devRef .tc b) :=
  StableHlo.after_of_forall_not_mem _ X fun op hop hw => absurd (flat_high op hop b hw) (Nat.not_le.mpr hb)

end Cert.Tail.OfKernel

end
-- ==== Proof.FrameRunB.lean ====
/-
  The whole program's run, and what it leaves.

  The region runs its fifty points under the launch theorem for a region followed by host operations: every array of
  the region ends at what the proof data say (an input as launched; the output with block t overwritten by point t's
  store), and every other buffer at what the ninety-one later operations compute from that state. Those operations
  write only their own result buffers — none of the twenty-three arguments and no array of the region — so each
  argument ends as launched, which is the frame; the result buffer ends at the later operations' value, kept here for
  the value claim.
-/
import proofs.«120134_j4784593567773_1_alg».proof.Proof.FrameDataB
import proofs.«120134_j4784593567773_1_alg».proof.Proof.TailFactsB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

set_option backward.isDefEq.respectTransparency.types false in
/-- Every weakly fair execution of the program terminates, faulting nowhere, with the region's arrays at the proof
    data's contents and every other buffer as the later operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := Cert.Tail.OfKernel.sfx_sub)
    (hfresh := Cert.Tail.OfKernel.sfx_fresh) (hkeep := Cert.Tail.OfKernel.sfx_keeps)
    (hmain := hmain m Variants.none) (hA := A_eq m) (hΦ := fun _ _ => rfl)

/-- A buffer that is an argument (its index is below every later operation's result) and no array of the region ends
    as launched: no later operation writes it, and the region does not touch it. -/
theorem tail_kept (dats : (p : Fin 1) → (c : Dev nD) → Dat τ (Elt F) Unit ℕ (UR sig nD τ) ℕ (cfgs p) c) (c : Dev nD)
    (b : Ref sig .tc) (hb : b.idx.val < 24) (hne : ∀ w, Pipeline.arrRef spec0 w ≠ b) :
    Pipeline.afterTail₀ cfgs dats 0 (V0 m) tailOps c b = m ((c : Thread nD τ).loc b) := by
  unfold Pipeline.afterTail₀
  rw [Cert.Tail.OfKernel.after_low _ b hb, Pipeline.withArrays_of_ne _ c (V0 m c) _ b hne]
  rfl

set_option maxHeartbeats 4000000 in
/-- From the run's post: the result buffer at the later operations' value, and every argument as launched. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v69) = Pipeline.afterTail₀ cfgs dats 0 (V0 m) tailOps c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c).2 main_v69 (Pipeline.mem_restRefs_of main_v69 (by decide) (by decide)),
      ((h c).1 0).trans (((dats 0 c).arrAt_in 0 rfl _).trans ((hA c 0).trans rfl)),
      ((h c).2 main_arg1 (Pipeline.mem_restRefs_of main_arg1 (by decide) (by decide))).trans (tail_kept m dats c main_arg1 (by decide) (by decide)),
      ((h c).2 main_arg2 (Pipeline.mem_restRefs_of main_arg2 (by decide) (by decide))).trans (tail_kept m dats c main_arg2 (by decide) (by decide)),
      ((h c).1 1).trans (((dats 0 c).arrAt_in 1 rfl _).trans ((hA c 1).trans rfl)),
      ((h c).1 2).trans (((dats 0 c).arrAt_in 2 rfl _).trans ((hA c 2).trans rfl)),
      ((h c).1 3).trans (((dats 0 c).arrAt_in 3 rfl _).trans ((hA c 3).trans rfl)),
      ((h c).1 4).trans (((dats 0 c).arrAt_in 4 rfl _).trans ((hA c 4).trans rfl)),
      ((h c).1 5).trans (((dats 0 c).arrAt_in 5 rfl _).trans ((hA c 5).trans rfl)),
      ((h c).1 6).trans (((dats 0 c).arrAt_in 6 rfl _).trans ((hA c 6).trans rfl)),
      ((h c).1 7).trans (((dats 0 c).arrAt_in 7 rfl _).trans ((hA c 7).trans rfl)),
      ((h c).1 8).trans (((dats 0 c).arrAt_in 8 rfl _).trans ((hA c 8).trans rfl)),
      ((h c).1 9).trans (((dats 0 c).arrAt_in 9 rfl _).trans ((hA c 9).trans rfl)),
      ((h c).1 10).trans (((dats 0 c).arrAt_in 10 rfl _).trans ((hA c 10).trans rfl)),
      ((h c).1 11).trans (((dats 0 c).arrAt_in 11 rfl _).trans ((hA c 11).trans rfl)),
      ((h c).1 12).trans (((dats 0 c).arrAt_in 12 rfl _).trans ((hA c 12).trans rfl)),
      ((h c).1 13).trans (((dats 0 c).arrAt_in 13 rfl _).trans ((hA c 13).trans rfl)),
      ((h c).1 14).trans (((dats 0 c).arrAt_in 14 rfl _).trans ((hA c 14).trans rfl)),
      ((h c).2 main_arg17 (Pipeline.mem_restRefs_of main_arg17 (by decide) (by decide))).trans (tail_kept m dats c main_arg17 (by decide) (by decide)),
      ((h c).2 main_arg18 (Pipeline.mem_restRefs_of main_arg18 (by decide) (by decide))).trans (tail_kept m dats c main_arg18 (by decide) (by decide)),
      ((h c).2 main_arg19 (Pipeline.mem_restRefs_of main_arg19 (by decide) (by decide))).trans (tail_kept m dats c main_arg19 (by decide) (by decide)),
      ((h c).2 main_arg20 (Pipeline.mem_restRefs_of main_arg20 (by decide) (by decide))).trans (tail_kept m dats c main_arg20 (by decide) (by decide)),
      ((h c).2 main_arg21 (Pipeline.mem_restRefs_of main_arg21 (by decide) (by decide))).trans (tail_kept m dats c main_arg21 (by decide) (by decide)),
      ((h c).2 main_arg22 (Pipeline.mem_restRefs_of main_arg22 (by decide) (by decide))).trans (tail_kept m dats c main_arg22 (by decide) (by decide))⟩) h

/-- The run with the result named and the arguments kept. -/
theorem run_full : θ_run defs (onTc (τ := τ) (main (F := F))) ⟨m, fun _ => 0, ρ⟩ (fun r => ∀ c : Dev nD,
      r.2.mem ((c.tc : Thread nD τ).loc main_v69) = Pipeline.afterTail₀ cfgs (dats m) 0 (V0 m) tailOps c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  post_of m ρ (dats m) (A_eq m) (run_main m ρ)

/-- The frame: the program runs to the end, faults nowhere, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => (h c).2) (run_full m ρ)

end Cert.Kernel.Hand

end
-- ==== Proof.BodyDef.lean ====
/-
  What one grid point of the encoder computes, as a pure function of the contents of its fifteen input buffers.

  The point's body reads, for each modality μ ∈ {0, 1}, slab μ of every buffer (the rows of h it was handed, the
  three weight matrices, the biases and the four batch-norm vectors of both normalisations), runs
  matmul → bias → batch-norm twice, then the decoder matmul and its bias, adds the two modalities into a zero
  accumulator and halves the sum. The arithmetic of each stretch of the body is the generated skeleton's payload
  term; this module only composes those terms along the loads, each load being the buffer read through the literal
  rectangle of its slab. The block stored in the output buffer is exactly this value (one store of the whole block).
-/
import proofs.«120134_j4784593567773_1_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-! ## The slabs: slab μ of each buffer, as a rectangle of the buffer's shape -/

abbrev rH0 : Rect S2x1000x2000 := Rect.unit (s := S2x1000x2000) ![0, 0, 0] S1x1000x2000.size Gen.inb_S2x1000x2000_S1x1000x2000_0_0_0
abbrev rH1 : Rect S2x1000x2000 := Rect.unit (s := S2x1000x2000) ![1, 0, 0] S1x1000x2000.size Gen.inb_S2x1000x2000_S1x1000x2000_1_0_0
abbrev rW10 : Rect S2x2000x500 := Rect.unit (s := S2x2000x500) ![0, 0, 0] S1x2000x500.size Gen.inb_S2x2000x500_S1x2000x500_0_0_0
abbrev rW11 : Rect S2x2000x500 := Rect.unit (s := S2x2000x500) ![1, 0, 0] S1x2000x500.size Gen.inb_S2x2000x500_S1x2000x500_1_0_0
abbrev rA0 : Rect S2x500 := Rect.unit (s := S2x500) ![0, 0] S1x500.size Gen.inb_S2x500_S1x500_0_0
abbrev rA1 : Rect S2x500 := Rect.unit (s := S2x500) ![1, 0] S1x500.size Gen.inb_S2x500_S1x500_1_0
abbrev rW20 : Rect S2x500x128 := Rect.unit (s := S2x500x128) ![0, 0, 0] S1x500x128.size Gen.inb_S2x500x128_S1x500x128_0_0_0
abbrev rW21 : Rect S2x500x128 := Rect.unit (s := S2x500x128) ![1, 0, 0] S1x500x128.size Gen.inb_S2x500x128_S1x500x128_1_0_0
abbrev rB0 : Rect S2x128 := Rect.unit (s := S2x128) ![0, 0] S1x128.size Gen.inb_S2x128_S1x128_0_0
abbrev rB1 : Rect S2x128 := Rect.unit (s := S2x128) ![1, 0] S1x128.size Gen.inb_S2x128_S1x128_1_0
abbrev rWd0 : Rect S2x128x64 := Rect.unit (s := S2x128x64) ![0, 0, 0] S1x128x64.size Gen.inb_S2x128x64_S1x128x64_0_0_0
abbrev rWd1 : Rect S2x128x64 := Rect.unit (s := S2x128x64) ![1, 0, 0] S1x128x64.size Gen.inb_S2x128x64_S1x128x64_1_0_0
abbrev rC0 : Rect S2x64 := Rect.unit (s := S2x64) ![0, 0] S1x64.size Gen.inb_S2x64_S1x64_0_0
abbrev rC1 : Rect S2x64 := Rect.unit (s := S2x64) ![1, 0] S1x64.size Gen.inb_S2x64_S1x64_1_0
/-- The whole output block. -/
abbrev rOut : Rect S1000x64 := Rect.unit (s := S1000x64) ![0, 0] S1000x64.size Gen.inb_S1000x64_S1000x64_0_0

/-! ## The point's value -/

/-- Modality 0 through both normalised layers and the decoder, added to the zero accumulator:
    `0 + (bn₂(bn₁(h₀·W1₀ + b1₀)·W2₀ + b2₀)·Wd₀ + bd₀)`, from slab 0 of each buffer. The buffers are, in order,
    h, W1, b1, g1, be1, m1, v1, W2, b2, g2, be2, m2, v2, Wd, bd. -/
def half0 (x0 : Vec F S2x1000x2000 .f32) (x1 : Vec F S2x2000x500 .f32) (x2 x3 x4 x5 x6 : Vec F S2x500 .f32)
    (x7 : Vec F S2x500x128 .f32) (x8 x9 x10 x11 x12 : Vec F S2x128 .f32) (x13 : Vec F S2x128x64 .f32)
    (x14 : Vec F S2x64 .f32) : FVec F S1000x64 .f32 :=
  k0_pay4 (k0_pay1 (F := F))
    (k0_pay2 (View.ld x0 rH0) (View.ld x1 rW10) (View.ld x2 rA0) (View.ld x6 rA0) (View.ld x3 rA0) (View.ld x5 rA0) (View.ld x4 rA0))
    (k0_pay3 (View.ld x7 rW20))
    (View.ld x8 rB0) (View.ld x12 rB0) (View.ld x9 rB0) (View.ld x11 rB0) (View.ld x10 rB0) (View.ld x13 rWd0) (View.ld x14 rC0)

/-- The point's value: modality 1 the same way from slab 1 of each buffer, added to `half0`, the sum halved. -/
def bodyVal (x0 : Vec F S2x1000x2000 .f32) (x1 : Vec F S2x2000x500 .f32) (x2 x3 x4 x5 x6 : Vec F S2x500 .f32)
    (x7 : Vec F S2x500x128 .f32) (x8 x9 x10 x11 x12 : Vec F S2x128 .f32) (x13 : Vec F S2x128x64 .f32)
    (x14 : Vec F S2x64 .f32) : FVec F S1000x64 .f32 :=
  k0_pay6 (half0 x0 x1 x2 x3 x4 x5 x6 x7 x8 x9 x10 x11 x12 x13 x14)
    (k0_pay5 (View.ld x0 rH1) (View.ld x1 rW11) (View.ld x2 rA1) (View.ld x6 rA1) (View.ld x3 rA1) (View.ld x5 rA1) (View.ld x4 rA1) (View.ld x7 rW21))
    (View.ld x8 rB1) (View.ld x12 rB1) (View.ld x9 rB1) (View.ld x11 rB1) (View.ld x10 rB1) (View.ld x13 rWd1) (View.ld x14 rC1)

/-- What the body leaves in the output buffer: its one store, of the whole block. -/
def out15 (x0 : Vec F S2x1000x2000 .f32) (x1 : Vec F S2x2000x500 .f32) (x2 x3 x4 x5 x6 : Vec F S2x500 .f32)
    (x7 : Vec F S2x500x128 .f32) (x8 x9 x10 x11 x12 : Vec F S2x128 .f32) (x13 : Vec F S2x128x64 .f32)
    (x14 : Vec F S2x64 .f32) : Vec F S1000x64 .f32 :=
  View.canon [⟨rOut, bodyVal x0 x1 x2 x3 x4 x5 x6 x7 x8 x9 x10 x11 x12 x13 x14⟩]

/-- The one store covers the block. -/
theorem cover15 (p0 : Vec F S1000x64 .f32) (y : S1000x64.Idx) :
    ∃ pc ∈ ([⟨rOut, p0⟩] : List (View.Piece (Elt F) S1000x64 .f32)), y ∈ pc.1.set :=
  View.cover_of_tiled [⟨rOut, p0⟩] S1000x64.size (by rfl) y

end Cert.KernelIdeal.Hand

end
-- ==== Proof.BodyRun.lean ====
/-
  One grid point of the encoder, run on whole buffers.

  Handed its fifteen input buffers at contents x0 … x14 and its output buffer at any contents, the body reads slab 0 and
  slab 1 of each input through literal rectangles (and the output buffer once, a value it never uses), computes, and
  stores one whole block; it ends with the inputs as they were and the output buffer at `out15 x0 … x14`, the block
  whose value is `bodyVal`. Nothing else of the machine is touched, so the triple is stated against any continuation.
-/
import proofs.«120134_j4784593567773_1_alg».proof.Proof.BodyDef
import proofs.«120134_j4784593567773_1_alg».proof.Proof.Gen.KernelIdeal.Launch
import proofs.«120134_j4784593567773_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole buffers: inputs kept, the output buffer left at the one stored block. -/
theorem sound_kernel (c : Dev nD) (E : Set ℕ) (i : grid0.Coords) (arg1 : Memref sig .tc .vmem S2x1000x2000 .f32) (harg1 : arg1.IsWhole) (arg2 : Memref sig .tc .vmem S2x2000x500 .f32) (harg2 : arg2.IsWhole) (arg3 : Memref sig .tc .vmem S2x500 .f32) (harg3 : arg3.IsWhole) (arg4 : Memref sig .tc .vmem S2x500 .f32) (harg4 : arg4.IsWhole) (arg5 : Memref sig .tc .vmem S2x500 .f32) (harg5 : arg5.IsWhole) (arg6 : Memref sig .tc .vmem S2x500 .f32) (harg6 : arg6.IsWhole) (arg7 : Memref sig .tc .vmem S2x500 .f32) (harg7 : arg7.IsWhole) (arg8 : Memref sig .tc .vmem S2x500x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S2x128 .f32) (harg13 : arg13.IsWhole) (arg14 : Memref sig .tc .vmem S2x128x64 .f32) (harg14 : arg14.IsWhole) (arg15 : Memref sig .tc .vmem S2x64 .f32) (harg15 : arg15.IsWhole) (arg16 : Memref sig .tc .vmem S1000x64 .f32) (harg16 : arg16.IsWhole)
    (x0 : Vec F S2x1000x2000 .f32) (x1 : Vec F S2x2000x500 .f32) (x2 x3 x4 x5 x6 : Vec F S2x500 .f32) (x7 : Vec F S2x500x128 .f32) (x8 x9 x10 x11 x12 : Vec F S2x128 .f32) (x13 : Vec F S2x128x64 .f32) (x14 : Vec F S2x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out15 x0 x1 x2 x3 x4 x5 x6 x7 x8 x9 x10 x11 x12 x13 x14)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__encoder_kernel_eq_skeleton]; unfold cc0__encoder_kernel_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover15 _)

end Cert.KernelIdeal.Hand

end
-- ==== Proof.FrameData.lean ====
/-
  The region's proof data: what every staging buffer holds before and after the body at each of the fifty grid points.

  The program is the region followed by host operations, with nothing before it, so the region finds every array as
  launched. Window 0 (h) is re-fetched at every point, block t being rows 1000·t … 1000·t + 999 of both modalities; the
  fourteen parameter windows are fetched once and keep their index, so at every point each input buffer holds its
  window's block of the array as launched. The body leaves the inputs in place and the output buffer at `out15` of
  the input blocks (BodyRun), which is all the library's launch theorem asks of a point.
-/
import proofs.«120134_j4784593567773_1_alg».proof.Proof.BodyRun
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The nine stretches of host operations after the region, in program order. -/
abbrev tailOps : List (List (HloOp τ sig (Elt F))) :=
  [hostOps1, hostOps1_1, hostOps1_2, hostOps1_3, hostOps1_4, hostOps1_5, hostOps1_6, hostOps1_7, hostOps1_8]

/-- The buffers' contents when the region is entered: no host operation comes before it, so the launch contents. -/
abbrev V0 (c : Dev nD) : Valuation τ sig (Elt F) :=
  StableHlo.after (List.flatten ([] : List (List (HloOp τ sig (Elt F))))) (fun b => m (c, b))
/-- The same read at a reference of the core. -/
abbrev V (c : Dev nD) (b : Ref sig .tc) : Buf (Elt F) ((c : Thread nD τ).loc b) := V0 m c (Proc.devRef .tc b)

/-- The program is the region continued by the nine stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall]) (by simp only [List.Forall]) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not: where it is not fetched
    the window's index has not moved, so the block is the one already there. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_in11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_in12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_in13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_in14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- Arrays as launched; after the body each input buffer at its block, the output buffer at the stored block; the
    invariant is the untouched rest of the core; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_in12 (c : Dev nD) (t : Fin cfg0.N) : (dats m 0 c).after 12 t = iblk m c 12 t := by dsimp only [dats]
theorem after_in13 (c : Dev nD) (t : Fin cfg0.N) : (dats m 0 c).after 13 t = iblk m c 13 t := by dsimp only [dats]
theorem after_in14 (c : Dev nD) (t : Fin cfg0.N) : (dats m 0 c).after 14 t = iblk m c 14 t := by dsimp only [dats]
theorem after_out (c : Dev nD) (t : Fin cfg0.N) : (dats m 0 c).after 15 t = out15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d
theorem before_in9 (c : Dev nD) (t : Fin cfg0.N) (d) : (dats m 0 c).before 9 t d = iblk m c 9 t :=
  before_in9_of m (dats m 0 c) (A_eq m c 9) (after_in9 m c) t d
theorem before_in10 (c : Dev nD) (t : Fin cfg0.N) (d) : (dats m 0 c).before 10 t d = iblk m c 10 t :=
  before_in10_of m (dats m 0 c) (A_eq m c 10) (after_in10 m c) t d
theorem before_in11 (c : Dev nD) (t : Fin cfg0.N) (d) : (dats m 0 c).before 11 t d = iblk m c 11 t :=
  before_in11_of m (dats m 0 c) (A_eq m c 11) (after_in11 m c) t d
theorem before_in12 (c : Dev nD) (t : Fin cfg0.N) (d) : (dats m 0 c).before 12 t d = iblk m c 12 t :=
  before_in12_of m (dats m 0 c) (A_eq m c 12) (after_in12 m c) t d
theorem before_in13 (c : Dev nD) (t : Fin cfg0.N) (d) : (dats m 0 c).before 13 t d = iblk m c 13 t :=
  before_in13_of m (dats m 0 c) (A_eq m c 13) (after_in13 m c) t d
theorem before_in14 (c : Dev nD) (t : Fin cfg0.N) (d) : (dats m 0 c).before 14 t d = iblk m c 14 t :=
  before_in14_of m (dats m 0 c) (A_eq m c 14) (after_in14 m c) t d

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9, before_in10, before_in11, before_in12, before_in13, before_in14]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_in11, after_in12, after_in13, after_in14, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.TailFacts.lean ====
import proofs.«120134_j4784593567773_1_alg».proof.Proof.Gen.KernelIdeal.Launch
import Idealize.ShloMosaic.Lib.Pipeline.FrameSuffix

/-!
# The host operations after the region leave the arguments and the windows' arrays alone

After its one region the program runs nine stretches of host operations (91 in all). Each of them writes
exactly one buffer, its own result, and every such result is an HBM buffer whose index is at least 24, whereas
the 23 arguments and the region's output array are the HBM buffers of index 0 … 23. So "is this buffer written
by the tail?" is decided by ONE comparison of indices per operation, not by comparing every operation with
every window: an operation is called *high* when every reference it writes has index ≥ 24, each stretch is a
list of high operations, and every window's array has an index below 24.

From that follow the three facts the frame run around a region asks of the operations after it (they stay
within the unscoped buffers, allocate nothing, and write no array of the pipeline), and the form used to read
an argument back after the tail: a buffer of index below 24 holds after the 91 operations what it held before.
Everything here is stated for any float instance.
-/

set_option maxRecDepth 16384

noncomputable section

namespace Cert.Tail.OfKernelIdeal

open Idealize.ShloMosaic Idealize.ShloMosaic.TcCoe
open Cert.KernelIdeal Cert.KernelIdeal.Gen

variable {F : FTy → Type} [FloatOps F]

/-- An operation is *high* when every TensorCore reference it writes has index at least 24 (in this program:
    it is a tensor value computed after the region, not an argument and not the region's output). -/
def High (op : HloOp τ sig (Elt F)) : Prop :=
  ∀ b : Ref sig .tc, Proc.devRef .tc b ∈ op.writes → 24 ≤ b.idx.val

/-- An operation whose only written buffer is the reference `y` is high as soon as `y`'s index is. -/
theorem high_of_writes {op : HloOp τ sig (Elt F)} (y : Ref sig .tc)
    (h : op.writes = {Proc.devRef .tc y}) (hy : 24 ≤ y.idx.val) : High op := by
  intro b hb
  rw [h, Finset.mem_singleton] at hb
  obtain rfl : b = y := Proc.devRef_injective _ hb
  exact hy

/-! ## Each stretch is a list of high operations that allocate nothing -/

theorem high1 : (hostOps1 : List (HloOp τ sig (Elt F))).Forall High := by
  simp only [List.Forall]; repeat' apply And.intro
  all_goals exact high_of_writes _ rfl (by decide)
theorem high1_1 : (hostOps1_1 : List (HloOp τ sig (Elt F))).Forall High := by
  simp only [List.Forall]; repeat' apply And.intro
  all_goals exact high_of_writes _ rfl (by decide)
theorem high1_2 : (hostOps1_2 : List (HloOp τ sig (Elt F))).Forall High := by
  simp only [List.Forall]; repeat' apply And.intro
  all_goals exact high_of_writes _ rfl (by decide)
theorem high1_3 : (hostOps1_3 : List (HloOp τ sig (Elt F))).Forall High := by
  simp only [List.Forall]; repeat' apply And.intro
  all_goals exact high_of_writes _ rfl (by decide)
theorem high1_4 : (hostOps1_4 : List (HloOp τ sig (Elt F))).Forall High := by
  simp only [List.Forall]; repeat' apply And.intro
  all_goals exact high_of_writes _ rfl (by decide)
theorem high1_5 : (hostOps1_5 : List (HloOp τ sig (Elt F))).Forall High := by
  simp only [List.Forall]; repeat' apply And.intro
  all_goals exact high_of_writes _ rfl (by decide)
theorem high1_6 : (hostOps1_6 : List (HloOp τ sig (Elt F))).Forall High := by
  simp only [List.Forall]; repeat' apply And.intro
  all_goals exact high_of_writes _ rfl (by decide)
theorem high1_7 : (hostOps1_7 : List (HloOp τ sig (Elt F))).Forall High := by
  simp only [List.Forall]; repeat' apply And.intro
  all_goals exact high_of_writes _ rfl (by decide)
theorem high1_8 : (hostOps1_8 : List (HloOp τ sig (Elt F))).Forall High := by
  simp only [List.Forall]; repeat' apply And.intro
  all_goals exact high_of_writes _ rfl (by decide)

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh1_6 : (hostOps1_6 : List (HloOp τ sig (Elt F))).Forall fun op => op.fresh = ∅ := by
  simp only [List.Forall]; repeat' constructor
theorem fresh1_7 : (hostOps1_7 : List (HloOp τ sig (Elt F))).Forall fun op => op.fresh = ∅ := by
  simp only [List.Forall]; repeat' constructor
theorem fresh1_8 : (hostOps1_8 : List (HloOp τ sig (Elt F))).Forall fun op => op.fresh = ∅ := by
  simp only [List.Forall]; repeat' constructor

/-! ## The nine stretches together -/

/-- A property every operation of each of the nine stretches has, every operation of the nine has. -/
theorem forall_stretches {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) (h7 : (hostOps1_7 : List (HloOp τ sig (Elt F))).Forall P)
    (h8 : (hostOps1_8 : List (HloOp τ sig (Elt F))).Forall P) :
    ∀ ops ∈ ([hostOps1, hostOps1_1, hostOps1_2, hostOps1_3, hostOps1_4, hostOps1_5, hostOps1_6, hostOps1_7, hostOps1_8] :
      List (List (HloOp τ sig (Elt F)))), ∀ op ∈ ops, P op := by
  intro ops hops op hop
  simp only [List.mem_cons, List.mem_nil_iff, or_false] at hops
  rcases hops with rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop

/-- Every operation after the region is high. -/
theorem sfx_high : ∀ ops ∈ ([hostOps1, hostOps1_1, hostOps1_2, hostOps1_3, hostOps1_4, hostOps1_5, hostOps1_6, hostOps1_7, hostOps1_8] :
      List (List (HloOp τ sig (Elt F)))), ∀ op ∈ ops,
    ∀ b : Ref sig .tc, Proc.devRef .tc b ∈ op.writes → 24 ≤ b.idx.val :=
  forall_stretches (P := High) high1 high1_1 high1_2 high1_3 high1_4 high1_5 high1_6 high1_7 high1_8

/-- Every window's array is one of the HBM buffers 0 … 23 (an argument, or the region's output). -/
theorem arr_low : ∀ w : Fin 16, (Pipeline.arrRef spec0 w).idx.val < 24 := by decide

/-- The operations after the region touch unscoped TensorCore references only: with nothing prefetched, those are the
    pipeline's arrays and the buffers that bypass the region. -/
theorem sfx_sub : ∀ ops ∈ ([hostOps1, hostOps1_1, hostOps1_2, hostOps1_3, hostOps1_4, hostOps1_5, hostOps1_6, hostOps1_7, hostOps1_8] :
      List (List (HloOp τ sig (Elt F)))), ∀ op ∈ ops,
    op.bufs ⊆ Pipeline.tailRefs sig Pipeline.Prefetch.none spec0 := by
  rw [Pipeline.tailRefs_none spec0 launch0.win.arr_unscoped]
  exact forall_stretches (P := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))
    (List.forall_iff_forall_mem.mpr fun op hop => Pipeline.sub_ucRefs op ((List.forall_iff_forall_mem.mp hostOps1_7_sub) op hop))
    (List.forall_iff_forall_mem.mpr fun op hop => Pipeline.sub_ucRefs op ((List.forall_iff_forall_mem.mp hostOps1_8_sub) op hop))

/-- They allocate nothing. -/
theorem sfx_fresh : ∀ ops ∈ ([hostOps1, hostOps1_1, hostOps1_2, hostOps1_3, hostOps1_4, hostOps1_5, hostOps1_6, hostOps1_7, hostOps1_8] :
      List (List (HloOp τ sig (Elt F)))), ∀ op ∈ ops, op.fresh = ∅ :=
  forall_stretches (P := fun op => op.fresh = ∅) fresh1 fresh1_1 fresh1_2 fresh1_3 fresh1_4 fresh1_5 fresh1_6 fresh1_7 fresh1_8

/-- And write no array of the pipeline: what they write has index ≥ 24, an array's index is below 24. -/
theorem sfx_keeps : ∀ ops ∈ ([hostOps1, hostOps1_1, hostOps1_2, hostOps1_3, hostOps1_4, hostOps1_5, hostOps1_6, hostOps1_7, hostOps1_8] :
      List (List (HloOp τ sig (Elt F)))), ∀ op ∈ ops,
    ∀ w, Proc.devRef .tc (Pipeline.arrRef spec0 w) ∉ op.writes := by
  intro ops hops op hop w hw
  exact absurd (sfx_high ops hops op hop _ hw) (Nat.not_le.mpr (arr_low w))

/-! ## A buffer of index below 24 after the tail -/

/-- Every operation of the flattened tail is high. -/
theorem flat_high : ∀ op ∈ (List.flatten [hostOps1, hostOps1_1, hostOps1_2, hostOps1_3, hostOps1_4, hostOps1_5, hostOps1_6, hostOps1_7, hostOps1_8] :
      List (HloOp τ sig (Elt F))), ∀ b : Ref sig .tc, Proc.devRef .tc b ∈ op.writes → 24 ≤ b.idx.val := by
  intro op hop
  obtain ⟨ops, hops, hop'⟩ := List.mem_flatten.mp hop
  exact sfx_high ops hops op hop'

/-- An argument, or the region's output — any reference of index below 24 — holds after the 91 operations what it held
    before them, from any contents `X` of the buffers. -/
theorem after_low (X : Valuation τ sig (Elt F)) (b : Ref sig .tc) (hb : b.idx.val < 24) :
    StableHlo.after (List.flatten [hostOps1, hostOps1_1, hostOps1_2, hostOps1_3, hostOps1_4, hostOps1_5, hostOps1_6, hostOps1_7, hostOps1_8]) X
      (Proc.devRef .tc b) = X (Proc.devRef .tc b) :=
  StableHlo.after_of_forall_not_mem _ X fun op hop hw => absurd (flat_high op hop b hw) (Nat.not_le.mpr hb)

end Cert.Tail.OfKernelIdeal

end
-- ==== Proof.FrameRun.lean ====
/-
  The whole program's run, and what it leaves.

  The region runs its fifty points under the launch theorem for a region followed by host operations: every array of
  the region ends at what the proof data say (an input as launched; the output with block t overwritten by point t's
  store), and every other buffer at what the ninety-one later operations compute from that state. Those operations
  write only their own result buffers — none of the twenty-three arguments and no array of the region — so each
  argument ends as launched, which is the frame; the result buffer ends at the later operations' value, kept here for
  the value claim.
-/
import proofs.«120134_j4784593567773_1_alg».proof.Proof.FrameData
import proofs.«120134_j4784593567773_1_alg».proof.Proof.TailFacts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- Every weakly fair execution of the program terminates, faulting nowhere, with the region's arrays at the proof
    data's contents and every other buffer as the later operations leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := Cert.Tail.OfKernelIdeal.sfx_sub)
    (hfresh := Cert.Tail.OfKernelIdeal.sfx_fresh) (hkeep := Cert.Tail.OfKernelIdeal.sfx_keeps)
    (hmain := hmain m Variants.none) (hA := A_eq m) (hΦ := fun _ _ => rfl)

/-- A buffer that is an argument (its index is below every later operation's result) and no array of the region ends
    as launched: no later operation writes it, and the region does not touch it. -/
theorem tail_kept (dats : (p : Fin 1) → (c : Dev nD) → Dat τ (Elt F) Unit ℕ (UR sig nD τ) ℕ (cfgs p) c) (c : Dev nD)
    (b : Ref sig .tc) (hb : b.idx.val < 24) (hne : ∀ w, Pipeline.arrRef spec0 w ≠ b) :
    Pipeline.afterTail₀ cfgs dats 0 (V0 m) tailOps c b = m ((c : Thread nD τ).loc b) := by
  unfold Pipeline.afterTail₀
  rw [Cert.Tail.OfKernelIdeal.after_low _ b hb, Pipeline.withArrays_of_ne _ c (V0 m c) _ b hne]
  rfl

set_option maxHeartbeats 4000000 in
/-- From the run's post: the result buffer at the later operations' value, and every argument as launched. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v69) = Pipeline.afterTail₀ cfgs dats 0 (V0 m) tailOps c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c).2 main_v69 (Pipeline.mem_restRefs_of main_v69 (by decide) (by decide)),
      ((h c).1 0).trans (((dats 0 c).arrAt_in 0 rfl _).trans ((hA c 0).trans rfl)),
      ((h c).2 main_arg1 (Pipeline.mem_restRefs_of main_arg1 (by decide) (by decide))).trans (tail_kept m dats c main_arg1 (by decide) (by decide)),
      ((h c).2 main_arg2 (Pipeline.mem_restRefs_of main_arg2 (by decide) (by decide))).trans (tail_kept m dats c main_arg2 (by decide) (by decide)),
      ((h c).1 1).trans (((dats 0 c).arrAt_in 1 rfl _).trans ((hA c 1).trans rfl)),
      ((h c).1 2).trans (((dats 0 c).arrAt_in 2 rfl _).trans ((hA c 2).trans rfl)),
      ((h c).1 3).trans (((dats 0 c).arrAt_in 3 rfl _).trans ((hA c 3).trans rfl)),
      ((h c).1 4).trans (((dats 0 c).arrAt_in 4 rfl _).trans ((hA c 4).trans rfl)),
      ((h c).1 5).trans (((dats 0 c).arrAt_in 5 rfl _).trans ((hA c 5).trans rfl)),
      ((h c).1 6).trans (((dats 0 c).arrAt_in 6 rfl _).trans ((hA c 6).trans rfl)),
      ((h c).1 7).trans (((dats 0 c).arrAt_in 7 rfl _).trans ((hA c 7).trans rfl)),
      ((h c).1 8).trans (((dats 0 c).arrAt_in 8 rfl _).trans ((hA c 8).trans rfl)),
      ((h c).1 9).trans (((dats 0 c).arrAt_in 9 rfl _).trans ((hA c 9).trans rfl)),
      ((h c).1 10).trans (((dats 0 c).arrAt_in 10 rfl _).trans ((hA c 10).trans rfl)),
      ((h c).1 11).trans (((dats 0 c).arrAt_in 11 rfl _).trans ((hA c 11).trans rfl)),
      ((h c).1 12).trans (((dats 0 c).arrAt_in 12 rfl _).trans ((hA c 12).trans rfl)),
      ((h c).1 13).trans (((dats 0 c).arrAt_in 13 rfl _).trans ((hA c 13).trans rfl)),
      ((h c).1 14).trans (((dats 0 c).arrAt_in 14 rfl _).trans ((hA c 14).trans rfl)),
      ((h c).2 main_arg17 (Pipeline.mem_restRefs_of main_arg17 (by decide) (by decide))).trans (tail_kept m dats c main_arg17 (by decide) (by decide)),
      ((h c).2 main_arg18 (Pipeline.mem_restRefs_of main_arg18 (by decide) (by decide))).trans (tail_kept m dats c main_arg18 (by decide) (by decide)),
      ((h c).2 main_arg19 (Pipeline.mem_restRefs_of main_arg19 (by decide) (by decide))).trans (tail_kept m dats c main_arg19 (by decide) (by decide)),
      ((h c).2 main_arg20 (Pipeline.mem_restRefs_of main_arg20 (by decide) (by decide))).trans (tail_kept m dats c main_arg20 (by decide) (by decide)),
      ((h c).2 main_arg21 (Pipeline.mem_restRefs_of main_arg21 (by decide) (by decide))).trans (tail_kept m dats c main_arg21 (by decide) (by decide)),
      ((h c).2 main_arg22 (Pipeline.mem_restRefs_of main_arg22 (by decide) (by decide))).trans (tail_kept m dats c main_arg22 (by decide) (by decide))⟩) h

/-- The run with the result named and the arguments kept. -/
theorem run_full : θ_run defs (onTc (τ := τ) (main (F := F))) ⟨m, fun _ => 0, ρ⟩ (fun r => ∀ c : Dev nD,
      r.2.mem ((c.tc : Thread nD τ).loc main_v69) = Pipeline.afterTail₀ cfgs (dats m) 0 (V0 m) tailOps c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  post_of m ρ (dats m) (A_eq m) (run_main m ρ)

/-- The frame: the program runs to the end, faults nowhere, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => (h c).2) (run_full m ρ)

end Cert.KernelIdeal.Hand

end
-- ==== Proof.EncSpec.lean ====
/-
  The multi-modal encoder as ONE function of its fifteen argument arrays.

  For each modality μ ∈ {0, 1} a row n of h[μ] goes through two normalised dense layers and a decoder:
    z₁[j] = Σ_k h[μ,n,k]·W1[μ,k,j] + b1[μ,j],   y₁[j] = (z₁[j] − m1[μ,j])·(g1[μ,j]·rsqrt(v1[μ,j] + ε)) + be1[μ,j],
    z₂[l] = Σ_j y₁[j]·W2[μ,j,l] + b2[μ,l],       y₂[l] = (z₂[l] − m2[μ,l])·(g2[μ,l]·rsqrt(v2[μ,l] + ε)) + be2[μ,l],
    dec_μ[d] = Σ_l y₂[l]·Wd[μ,l,d] + bd[μ,d],
  and the encoder's value at (n, d) is ((0 + dec₀[d]) + dec₁[d]) · ½: the two modalities added, in order, to a zero
  accumulator and the sum halved. Every operation is the extended reals' exact one; ε, the accumulator's zero and ½
  stay the binary words the programs spell, so that the same word on two sides is never evaluated.

  A row's value depends on h only through that row, so the formula is stated for an h of any number N of rows:
  at N = 50000 it is the whole array's (`enc`), at N = 1000 a block's (`encRow`), and a block row equals the array
  row it was cut from (`encN_of_rows`). The grouping above — a sum of products first, then the bias; the scale
  g·rsqrt(v + ε) formed before it multiplies the centred value; 0 + dec₀ before + dec₁; the half as a factor on the
  right — is the one both programs compute up to the last step, where one of them divides by two instead
  (`div_two_eq_mul_half`) and sums the modalities from the zero in one reduction (`zero_add_pair`).
-/
import Idealize.ShloMosaic.PureOps.Ideal
import Idealize.ShloMosaic.Lib.ValueIdx

noncomputable section

namespace Cert.Enc

open Idealize.ShloMosaic Idealize.ShloMosaic.ValueIdx
open scoped BigOperators

/-- The offset added to a variance before its reciprocal square root: the f32 word nearest 1e-5, kept as its word. -/
abbrev eps : EReal := Ideal.ofBits .f32 0x3727C5AC#32
/-- The value the sum over the modalities starts from: the zero word. -/
abbrev acc0 : EReal := Ideal.ofBits .f32 0x00000000#32
/-- The factor ½, as its word. -/
abbrev half : EReal := Ideal.ofBits .f32 0x3F000000#32

/-- Inference-mode batch normalisation of one value `z` with mean `m`, scale `g`, variance `v` and shift `be`:
    the centred value times the scale g·rsqrt(v + ε), plus the shift. -/
def bn (z m g v be : EReal) : EReal := (z - m) * (g * Ideal.rsqrt (v + eps)) + be

section Formula

variable (N : Nat)
  (h : (⟨3, ![2, N, 2000]⟩ : Shape).Idx → EReal)
  (W1 : (⟨3, ![2, 2000, 500]⟩ : Shape).Idx → EReal)
  (b1 g1 be1 m1 v1 : (⟨2, ![2, 500]⟩ : Shape).Idx → EReal)
  (W2 : (⟨3, ![2, 500, 128]⟩ : Shape).Idx → EReal)
  (b2 g2 be2 m2 v2 : (⟨2, ![2, 128]⟩ : Shape).Idx → EReal)
  (Wd : (⟨3, ![2, 128, 64]⟩ : Shape).Idx → EReal)
  (bd : (⟨2, ![2, 64]⟩ : Shape).Idx → EReal)

/-- The first normalised layer of modality μ at row n, feature j. -/
def lay1 (μ : Fin 2) (n : Fin N) (j : Fin 500) : EReal :=
  bn ((∑ k : Fin 2000, h (ix3 μ n k) * W1 (ix3 μ k j)) + b1 (ix2 μ j))
    (m1 (ix2 μ j)) (g1 (ix2 μ j)) (v1 (ix2 μ j)) (be1 (ix2 μ j))

/-- The second normalised layer of modality μ at row n, feature l. -/
def lay2 (μ : Fin 2) (n : Fin N) (l : Fin 128) : EReal :=
  bn ((∑ j : Fin 500, lay1 N h W1 b1 g1 be1 m1 v1 μ n j * W2 (ix3 μ j l)) + b2 (ix2 μ l))
    (m2 (ix2 μ l)) (g2 (ix2 μ l)) (v2 (ix2 μ l)) (be2 (ix2 μ l))

/-- The decoder of modality μ at row n, output feature d. -/
def dec (μ : Fin 2) (n : Fin N) (d : Fin 64) : EReal :=
  (∑ l : Fin 128, lay2 N h W1 b1 g1 be1 m1 v1 W2 b2 g2 be2 m2 v2 μ n l * Wd (ix3 μ l d)) + bd (ix2 μ d)

/-- The encoder at row n, feature d: the two decoded modalities added in order to the zero word, the sum halved. -/
def encN (n : Fin N) (d : Fin 64) : EReal :=
  ((acc0 + dec N h W1 b1 g1 be1 m1 v1 W2 b2 g2 be2 m2 v2 Wd bd 0 n d)
    + dec N h W1 b1 g1 be1 m1 v1 W2 b2 g2 be2 m2 v2 Wd bd 1 n d) * half

end Formula

/-- The encoder over the whole array of 50000 rows. -/
abbrev enc := encN 50000
/-- The encoder over a block of 1000 rows. -/
abbrev encRow := encN 1000

/-- A row's value depends on h only through that row: if row r of h' is row n of h in both modalities, the encoder
    of h' at r is the encoder of h at n. -/
theorem encN_of_rows {N N' : Nat}
    (h : (⟨3, ![2, N, 2000]⟩ : Shape).Idx → EReal) (h' : (⟨3, ![2, N', 2000]⟩ : Shape).Idx → EReal)
    (W1 : (⟨3, ![2, 2000, 500]⟩ : Shape).Idx → EReal)
    (b1 g1 be1 m1 v1 : (⟨2, ![2, 500]⟩ : Shape).Idx → EReal)
    (W2 : (⟨3, ![2, 500, 128]⟩ : Shape).Idx → EReal)
    (b2 g2 be2 m2 v2 : (⟨2, ![2, 128]⟩ : Shape).Idx → EReal)
    (Wd : (⟨3, ![2, 128, 64]⟩ : Shape).Idx → EReal)
    (bd : (⟨2, ![2, 64]⟩ : Shape).Idx → EReal)
    (n : Fin N) (r : Fin N') (hrow : ∀ (μ : Fin 2) (k : Fin 2000), h' (ix3 μ r k) = h (ix3 μ n k)) (d : Fin 64) :
    encN N' h' W1 b1 g1 be1 m1 v1 W2 b2 g2 be2 m2 v2 Wd bd r d
      = encN N h W1 b1 g1 be1 m1 v1 W2 b2 g2 be2 m2 v2 Wd bd n d := by
  have e1 : ∀ (μ : Fin 2) (j : Fin 500), lay1 N' h' W1 b1 g1 be1 m1 v1 μ r j = lay1 N h W1 b1 g1 be1 m1 v1 μ n j := by
    intro μ j
    unfold lay1
    exact congrArg (fun s => bn (s + b1 (ix2 μ j)) (m1 (ix2 μ j)) (g1 (ix2 μ j)) (v1 (ix2 μ j)) (be1 (ix2 μ j)))
      (Finset.sum_congr rfl fun k _ => by rw [hrow μ k])
  have e2 : ∀ (μ : Fin 2) (l : Fin 128), lay2 N' h' W1 b1 g1 be1 m1 v1 W2 b2 g2 be2 m2 v2 μ r l
      = lay2 N h W1 b1 g1 be1 m1 v1 W2 b2 g2 be2 m2 v2 μ n l := by
    intro μ l
    unfold lay2
    exact congrArg (fun s => bn (s + b2 (ix2 μ l)) (m2 (ix2 μ l)) (g2 (ix2 μ l)) (v2 (ix2 μ l)) (be2 (ix2 μ l)))
      (Finset.sum_congr rfl fun j _ => by rw [e1 μ j])
  have e3 : ∀ (μ : Fin 2), dec N' h' W1 b1 g1 be1 m1 v1 W2 b2 g2 be2 m2 v2 Wd bd μ r d
      = dec N h W1 b1 g1 be1 m1 v1 W2 b2 g2 be2 m2 v2 Wd bd μ n d := by
    intro μ
    unfold dec
    exact congrArg (fun s => s + bd (ix2 μ d)) (Finset.sum_congr rfl fun l _ => by rw [e2 μ l])
  unfold encN
  rw [e3 0, e3 1]

/-! ## The two facts on extended reals that join a sum-then-divide reading to this one -/

/-- The word 0x40000000 is the real 2 … -/
theorem ofBits_two : Ideal.ofBits .f32 0x40000000#32 = ((2 : ℝ) : EReal) := by
  simp [Ideal.ofBits, Ideal.ieee, -EReal.coe_mul]; norm_num

/-- … and the word 0x3F000000 is the real ½. -/
theorem ofBits_half : Ideal.ofBits .f32 0x3F000000#32 = ((1 / 2 : ℝ) : EReal) := by
  simp [Ideal.ofBits, Ideal.ieee, -EReal.coe_mul]; norm_num

/-- Dividing by the word 2.0 is multiplying by the word 0.5, on every extended real (the infinities and the junk
    value included: both sides are x times the real ½). -/
theorem div_two_eq_mul_half (x : EReal) : Ideal.div x (Ideal.ofBits .f32 0x40000000#32) = x * half := by
  rw [ofBits_two, Ideal.div_coe (by norm_num : (2 : ℝ) ≠ 0)]
  show x * ((1 / 2 : ℝ) : EReal) = x * Ideal.ofBits .f32 0x3F000000#32
  rw [ofBits_half]

/-- A sum over the two modalities started from `z` is `z` plus the first, plus the second: addition of extended
    reals is associative everywhere. -/
theorem zero_add_pair (z : EReal) (f : Fin 2 → EReal) : z + ∑ μ : Fin 2, f μ = (z + f 0) + f 1 := by
  rw [Fin.sum_univ_two, add_assoc]

end Cert.Enc

end
-- ==== Proof.EncKernel.lean ====
/-
  One grid point's body computes the encoder's formula over the block of h it was handed.

  The body is straight-line vector arithmetic on slabs of its fifteen buffers: for each modality μ it loads slab μ of
  every buffer (a leading unit axis, dropped by a shape cast), rounds the operands of each product to a narrower
  format — the identity on extended reals —, multiplies into a zero accumulator, adds the bias row, centres and
  scales with the row g·rsqrt(v + ε), shifts, and so on through the second layer and the decoder; the two
  modalities are added in turn to a zero block and the sum is multiplied by ½. Read at one entry (r, d):
    • a product into a zero accumulator is the sum over the contracted coordinate of the operands' products
      (`mm1_apply`, `mm2_apply`, `mm3_apply`: the contraction index is its one coordinate);
    • a parameter row, flattened, restored and repeated along the block's rows, is the parameter at its column
      (`row_apply`), and the scale row likewise (`scale_apply`);
    • slab μ of a buffer at (0, …) is the buffer at (μ, …) (`idx_rH0` … `idx_rC1`).
  With these each stretch of the body is one layer of the specification, in the specification's own grouping
  (`pay2_apply` … `pay6_apply`), and their composition is `encRow` (`bodyVal_apply`). No algebra is used on this side:
  every step is a re-indexing or the unfolding of an operation at an index.
-/
import proofs.«120134_j4784593567773_1_alg».proof.Proof.BodyDef
import proofs.«120134_j4784593567773_1_alg».proof.Proof.EncSpec
import Idealize.ShloMosaic.Lib.ValueLayout
import Idealize.ShloMosaic.PureOps.Ideal.Laws

noncomputable section

namespace Cert.Enc

open Idealize.ShloMosaic Idealize.ShloMosaic.ValueIdx Cert.KernelIdeal Cert.KernelIdeal.Gen Cert.KernelIdeal.Hand
open scoped BigOperators

/-! ## The three matrix products read at an index -/

theorem mm1_apply_l0 (i : S1000x500.Idx) (q : dot_S1000x2000_S2000x500_S1000x500_1_0_0_1_n_n.contr.Idx) : (dot_S1000x2000_S2000x500_S1000x500_1_0_0_1_n_n.lhsIdx i q 0).val = (i 0).val := by
  unfold DotDims.lhsIdx
  rw [dif_neg (show ¬(0 : Fin S1000x2000.rank) ∈ dot_S1000x2000_S2000x500_S1000x500_1_0_0_1_n_n.lhsBatch by decide), dif_pos (show (0 : Fin S1000x2000.rank) ∈ dot_S1000x2000_S2000x500_S1000x500_1_0_0_1_n_n.lhsNonContracting by decide)]
  rfl
theorem mm1_apply_l1 (i : S1000x500.Idx) (q : dot_S1000x2000_S2000x500_S1000x500_1_0_0_1_n_n.contr.Idx) : (dot_S1000x2000_S2000x500_S1000x500_1_0_0_1_n_n.lhsIdx i q 1).val = (q ⟨0, by decide⟩).val :=
  dot_S1000x2000_S2000x500_S1000x500_1_0_0_1_n_n.lhsIdx_val_of_single rfl i q
theorem mm1_apply_r0 (i : S1000x500.Idx) (q : dot_S1000x2000_S2000x500_S1000x500_1_0_0_1_n_n.contr.Idx) : (dot_S1000x2000_S2000x500_S1000x500_1_0_0_1_n_n.rhsIdx i q 0).val = (q ⟨0, by decide⟩).val :=
  dot_S1000x2000_S2000x500_S1000x500_1_0_0_1_n_n.rhsIdx_val_of_single rfl i q
theorem mm1_apply_r1 (i : S1000x500.Idx) (q : dot_S1000x2000_S2000x500_S1000x500_1_0_0_1_n_n.contr.Idx) : (dot_S1000x2000_S2000x500_S1000x500_1_0_0_1_n_n.rhsIdx i q 1).val = (i 1).val := by
  unfold DotDims.rhsIdx
  rw [dif_neg (show ¬(1 : Fin S2000x500.rank) ∈ dot_S1000x2000_S2000x500_S1000x500_1_0_0_1_n_n.rhsBatch by decide), dif_pos (show (1 : Fin S2000x500.rank) ∈ dot_S1000x2000_S2000x500_S1000x500_1_0_0_1_n_n.rhsNonContracting by decide)]
  rfl
/-- The 1000×2000 by 2000×500 product into a zero accumulator, read at (p, c): the sum over the contracted coordinate. -/
theorem mm1_apply (L : FVec Ideal S1000x2000 .bf16) (R : FVec Ideal S2000x500 .bf16) (p : Fin 1000) (c : Fin 500) :
    matmul dot_S1000x2000_S2000x500_S1000x500_1_0_0_1_n_n none L R (constant S1000x500 .f32 0x00000000#32) (ix2 p c)
      = ∑ k : Fin 2000, L (ix2 p k) * R (ix2 k c) := by
  show FloatOps.matmul dot_S1000x2000_S2000x500_S1000x500_1_0_0_1_n_n none L R (constant S1000x500 .f32 0x00000000#32) (ix2 p c) = _
  rw [Ideal.matmul_constant_zero_apply, ← Equiv.sum_comp (contrEquiv1 dot_S1000x2000_S2000x500_S1000x500_1_0_0_1_n_n 2000 rfl rfl).symm]
  refine Finset.sum_congr rfl fun k _ => ?_
  have hk := contrEquiv1_symm_val dot_S1000x2000_S2000x500_S1000x500_1_0_0_1_n_n 2000 rfl rfl k
  have el : dot_S1000x2000_S2000x500_S1000x500_1_0_0_1_n_n.lhsIdx (ix2 p c) ((contrEquiv1 dot_S1000x2000_S2000x500_S1000x500_1_0_0_1_n_n 2000 rfl rfl).symm k) = ix2 p k := funext fun a => Fin.ext (by
    match a with
    | ⟨0, _⟩ => exact mm1_apply_l0 _ _
    | ⟨1, _⟩ => exact (mm1_apply_l1 _ _).trans hk)
  have er : dot_S1000x2000_S2000x500_S1000x500_1_0_0_1_n_n.rhsIdx (ix2 p c) ((contrEquiv1 dot_S1000x2000_S2000x500_S1000x500_1_0_0_1_n_n 2000 rfl rfl).symm k) = ix2 k c := funext fun a => Fin.ext (by
    match a with
    | ⟨0, _⟩ => exact (mm1_apply_r0 _ _).trans hk
    | ⟨1, _⟩ => exact mm1_apply_r1 _ _)
  rw [el, er]

theorem mm2_apply_l0 (i : S1000x128.Idx) (q : dot_S1000x500_S500x128_S1000x128_1_0_0_1_n_n.contr.Idx) : (dot_S1000x500_S500x128_S1000x128_1_0_0_1_n_n.lhsIdx i q 0).val = (i 0).val := by
  unfold DotDims.lhsIdx
  rw [dif_neg (show ¬(0 : Fin S1000x500.rank) ∈ dot_S1000x500_S500x128_S1000x128_1_0_0_1_n_n.lhsBatch by decide), dif_pos (show (0 : Fin S1000x500.rank) ∈ dot_S1000x500_S500x128_S1000x128_1_0_0_1_n_n.lhsNonContracting by decide)]
  rfl
theorem mm2_apply_l1 (i : S1000x128.Idx) (q : dot_S1000x500_S500x128_S1000x128_1_0_0_1_n_n.contr.Idx) : (dot_S1000x500_S500x128_S1000x128_1_0_0_1_n_n.lhsIdx i q 1).val = (q ⟨0, by decide⟩).val :=
  dot_S1000x500_S500x128_S1000x128_1_0_0_1_n_n.lhsIdx_val_of_single rfl i q
theorem mm2_apply_r0 (i : S1000x128.Idx) (q : dot_S1000x500_S500x128_S1000x128_1_0_0_1_n_n.contr.Idx) : (dot_S1000x500_S500x128_S1000x128_1_0_0_1_n_n.rhsIdx i q 0).val = (q ⟨0, by decide⟩).val :=
  dot_S1000x500_S500x128_S1000x128_1_0_0_1_n_n.rhsIdx_val_of_single rfl i q
theorem mm2_apply_r1 (i : S1000x128.Idx) (q : dot_S1000x500_S500x128_S1000x128_1_0_0_1_n_n.contr.Idx) : (dot_S1000x500_S500x128_S1000x128_1_0_0_1_n_n.rhsIdx i q 1).val = (i 1).val := by
  unfold DotDims.rhsIdx
  rw [dif_neg (show ¬(1 : Fin S500x128.rank) ∈ dot_S1000x500_S500x128_S1000x128_1_0_0_1_n_n.rhsBatch by decide), dif_pos (show (1 : Fin S500x128.rank) ∈ dot_S1000x500_S500x128_S1000x128_1_0_0_1_n_n.rhsNonContracting by decide)]
  rfl
/-- The 1000×500 by 500×128 product into a zero accumulator, read at (p, c): the sum over the contracted coordinate. -/
theorem mm2_apply (L : FVec Ideal S1000x500 .bf16) (R : FVec Ideal S500x128 .bf16) (p : Fin 1000) (c : Fin 128) :
    matmul dot_S1000x500_S500x128_S1000x128_1_0_0_1_n_n none L R (constant S1000x128 .f32 0x00000000#32) (ix2 p c)
      = ∑ k : Fin 500, L (ix2 p k) * R (ix2 k c) := by
  show FloatOps.matmul dot_S1000x500_S500x128_S1000x128_1_0_0_1_n_n none L R (constant S1000x128 .f32 0x00000000#32) (ix2 p c) = _
  rw [Ideal.matmul_constant_zero_apply, ← Equiv.sum_comp (contrEquiv1 dot_S1000x500_S500x128_S1000x128_1_0_0_1_n_n 500 rfl rfl).symm]
  refine Finset.sum_congr rfl fun k _ => ?_
  have hk := contrEquiv1_symm_val dot_S1000x500_S500x128_S1000x128_1_0_0_1_n_n 500 rfl rfl k
  have el : dot_S1000x500_S500x128_S1000x128_1_0_0_1_n_n.lhsIdx (ix2 p c) ((contrEquiv1 dot_S1000x500_S500x128_S1000x128_1_0_0_1_n_n 500 rfl rfl).symm k) = ix2 p k := funext fun a => Fin.ext (by
    match a with
    | ⟨0, _⟩ => exact mm2_apply_l0 _ _
    | ⟨1, _⟩ => exact (mm2_apply_l1 _ _).trans hk)
  have er : dot_S1000x500_S500x128_S1000x128_1_0_0_1_n_n.rhsIdx (ix2 p c) ((contrEquiv1 dot_S1000x500_S500x128_S1000x128_1_0_0_1_n_n 500 rfl rfl).symm k) = ix2 k c := funext fun a => Fin.ext (by
    match a with
    | ⟨0, _⟩ => exact (mm2_apply_r0 _ _).trans hk
    | ⟨1, _⟩ => exact mm2_apply_r1 _ _)
  rw [el, er]

theorem mm3_apply_l0 (i : S1000x64.Idx) (q : dot_S1000x128_S128x64_S1000x64_1_0_0_1_n_n.contr.Idx) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem mm3_apply_l1 (i : S1000x64.Idx) (q : dot_S1000x128_S128x64_S1000x64_1_0_0_1_n_n.contr.Idx) : (dot_S1000x128_S128x64_S1000x64_1_0_0_1_n_n.lhsIdx i q 1).val = (q ⟨0, by decide⟩).val :=
  dot_S1000x128_S128x64_S1000x64_1_0_0_1_n_n.lhsIdx_val_of_single rfl i q
theorem mm3_apply_r0 (i : S1000x64.Idx) (q : dot_S1000x128_S128x64_S1000x64_1_0_0_1_n_n.contr.Idx) : (dot_S1000x128_S128x64_S1000x64_1_0_0_1_n_n.rhsIdx i q 0).val = (q ⟨0, by decide⟩).val :=
  dot_S1000x128_S128x64_S1000x64_1_0_0_1_n_n.rhsIdx_val_of_single rfl i q
theorem mm3_apply_r1 (i : S1000x64.Idx) (q : dot_S1000x128_S128x64_S1000x64_1_0_0_1_n_n.contr.Idx) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl
/-- The 1000×128 by 128×64 product into a zero accumulator, read at (p, c): the sum over the contracted coordinate. -/
theorem mm3_apply (L : FVec Ideal S1000x128 .bf16) (R : FVec Ideal S128x64 .bf16) (p : Fin 1000) (c : Fin 64) :
    matmul dot_S1000x128_S128x64_S1000x64_1_0_0_1_n_n none L R (constant S1000x64 .f32 0x00000000#32) (ix2 p c)
      = ∑ k : Fin 128, L (ix2 p k) * R (ix2 k c) := by
  show FloatOps.matmul dot_S1000x128_S128x64_S1000x64_1_0_0_1_n_n none L R (constant S1000x64 .f32 0x00000000#32) (ix2 p c) = _
  rw [Ideal.matmul_constant_zero_apply, ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p c) ((contrEquiv1 dot_S1000x128_S128x64_S1000x64_1_0_0_1_n_n 128 rfl rfl).symm k) = ix2 p k := funext fun a => Fin.ext (by
    match a with
    | ⟨0, _⟩ => exact mm3_apply_l0 _ _
    | ⟨1, _⟩ => exact (mm3_apply_l1 _ _).trans hk)
  have er : dot_S1000x128_S128x64_S1000x64_1_0_0_1_n_n.rhsIdx (ix2 p c) ((contrEquiv1 dot_S1000x128_S128x64_S1000x64_1_0_0_1_n_n 128 rfl rfl).symm k) = ix2 k c := funext fun a => Fin.ext (by
    match a with
    | ⟨0, _⟩ => exact (mm3_apply_r0 _ _).trans hk
    | ⟨1, _⟩ => exact mm3_apply_r1 _ _)
  rw [el, er]

/-! ## A parameter row [1, b] laid along the rows of an [a, b] block -/

/-- A row flattened, restored and repeated along `a` rows reads, at (p, c), the row's entry c. -/
theorem row_apply {α : Type} {a b : ℕ} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h1) h2) h3 (ix2 p c) = v (ix2 (0 : Fin 1) c) := by
  rw [shapeCast_shapeCast]
  exact broadcastTo_1b_ab_apply v h3 p c

/-- The normalisation's scale row, g·rsqrt(v + ε) formed on the flattened rows and repeated along `a` rows, reads at
    (p, c) the scale of feature c. -/
theorem scale_apply {a b : ℕ} (vg vv : FVec Ideal ⟨2, ![1, b]⟩ .f32)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (c : Fin b) :
    broadcastTo ⟨2, ![a, b]⟩ (shapeCast ⟨2, ![1, b]⟩
        (mulf (F := Ideal) (φ := .f32) (shapeCast ⟨1, ![b]⟩ vg h1)
          (rsqrt (addf (shapeCast ⟨1, ![b]⟩ vv h1) (broadcast ⟨1, ![b]⟩ (Scalar.ofBits .f32 0x3727C5AC#32))))) h2) h3 (ix2 p c)
      = vg (ix2 (0 : Fin 1) c) * Ideal.rsqrt (vv (ix2 (0 : Fin 1) c) + eps) := by
  refine (broadcastTo_1b_ab_apply _ h3 p c).trans ?_
  refine (shapeCast_a_1a_apply _ h2 0 c).trans ?_
  show shapeCast ⟨1, ![b]⟩ vg h1 (ix1 c) * Ideal.rsqrt (shapeCast ⟨1, ![b]⟩ vv h1 (ix1 c) + eps) = _
  rw [shapeCast_1a_a_apply, shapeCast_1a_a_apply]

/-! ## The body's stretches read at an index -/

/-- The first normalised layer of one modality, from that modality's slabs. -/
theorem pay2_apply (v1 : Vec Ideal S1x1000x2000 .f32) (v4 : Vec Ideal S1x2000x500 .f32) (v8 v13 v18 v21 v29 : Vec Ideal S1x500 .f32)
    (r : Fin 1000) (j : Fin 500) :
    k0_pay2 (F := Ideal) v1 v4 v8 v13 v18 v21 v29 (ix2 r j)
      = bn ((∑ k : Fin 2000, v1 (ix3 (0 : Fin 1) r k) * v4 (ix3 (0 : Fin 1) k j)) + v8 (ix2 (0 : Fin 1) j))
          (v21 (ix2 (0 : Fin 1) j)) (v18 (ix2 (0 : Fin 1) j)) (v13 (ix2 (0 : Fin 1) j)) (v29 (ix2 (0 : Fin 1) j)) := by
  unfold k0_pay2 bn
  simp only [addf_apply, mulf_apply, subf_apply]
  rw [mm1_apply, row_apply, row_apply, row_apply, scale_apply]
  simp only [truncf_apply, shapeCast_1ab_ab_apply]

/-- The second layer's weights, the leading unit axis dropped. -/
theorem pay3_apply (v34 : Vec Ideal S1x500x128 .f32) (j : Fin 500) (l : Fin 128) :
    k0_pay3 (F := Ideal) v34 (ix2 j l) = v34 (ix3 (0 : Fin 1) j l) := by
  unfold k0_pay3
  simp only [truncf_apply, shapeCast_1ab_ab_apply]

/-- The zero accumulator. -/
theorem pay1_apply (r : Fin 1000) (d : Fin 64) : k0_pay1 (F := Ideal) (ix2 r d) = acc0 := rfl

/-- Modality 0 from its first layer on: second normalised layer, decoder, bias, added to the accumulator. -/
theorem pay4_apply (v0 : FVec Ideal S1000x64 .f32) (v33 : FVec Ideal S1000x500 .f32) (v36 : FVec Ideal S500x128 .bf16)
    (v39 v44 v49 v52 v60 : Vec Ideal S1x128 .f32) (v65 : Vec Ideal S1x128x64 .f32) (v70 : Vec Ideal S1x64 .f32)
    (r : Fin 1000) (d : Fin 64) :
    k0_pay4 (F := Ideal) v0 v33 v36 v39 v44 v49 v52 v60 v65 v70 (ix2 r d)
      = v0 (ix2 r d) + ((∑ l : Fin 128,
            bn ((∑ j : Fin 500, v33 (ix2 r j) * v36 (ix2 j l)) + v39 (ix2 (0 : Fin 1) l))
              (v52 (ix2 (0 : Fin 1) l)) (v49 (ix2 (0 : Fin 1) l)) (v44 (ix2 (0 : Fin 1) l)) (v60 (ix2 (0 : Fin 1) l))
            * v65 (ix3 (0 : Fin 1) l d)) + v70 (ix2 (0 : Fin 1) d)) := by
  unfold k0_pay4 bn
  simp only [addf_apply]
  rw [mm3_apply, row_apply]
  simp only [truncf_apply, addf_apply, mulf_apply, subf_apply, mm2_apply, row_apply, scale_apply, shapeCast_1ab_ab_apply]

/-- Modality 1 up to its second layer's product. -/
theorem pay5_apply (v76 : Vec Ideal S1x1000x2000 .f32) (v79 : Vec Ideal S1x2000x500 .f32) (v83 v88 v93 v96 v104 : Vec Ideal S1x500 .f32)
    (v109 : Vec Ideal S1x500x128 .f32) (r : Fin 1000) (l : Fin 128) :
    k0_pay5 (F := Ideal) v76 v79 v83 v88 v93 v96 v104 v109 (ix2 r l)
      = ∑ j : Fin 500,
          bn ((∑ k : Fin 2000, v76 (ix3 (0 : Fin 1) r k) * v79 (ix3 (0 : Fin 1) k j)) + v83 (ix2 (0 : Fin 1) j))
            (v96 (ix2 (0 : Fin 1) j)) (v93 (ix2 (0 : Fin 1) j)) (v88 (ix2 (0 : Fin 1) j)) (v104 (ix2 (0 : Fin 1) j))
          * v109 (ix3 (0 : Fin 1) j l) := by
  unfold k0_pay5 bn
  rw [mm2_apply]
  simp only [truncf_apply, addf_apply, mulf_apply, subf_apply, mm1_apply, row_apply, scale_apply, shapeCast_1ab_ab_apply]

/-- Modality 1 from its second layer's product on, added to modality 0's accumulator, the sum halved. -/
theorem pay6_apply (v75 : FVec Ideal S1000x64 .f32) (v113 : FVec Ideal S1000x128 .f32)
    (v114 v119 v124 v127 v135 : Vec Ideal S1x128 .f32) (v140 : Vec Ideal S1x128x64 .f32) (v145 : Vec Ideal S1x64 .f32)
    (r : Fin 1000) (d : Fin 64) :
    k0_pay6 (F := Ideal) v75 v113 v114 v119 v124 v127 v135 v140 v145 (ix2 r d)
      = (v75 (ix2 r d) + ((∑ l : Fin 128,
            bn (v113 (ix2 r l) + v114 (ix2 (0 : Fin 1) l))
              (v127 (ix2 (0 : Fin 1) l)) (v124 (ix2 (0 : Fin 1) l)) (v119 (ix2 (0 : Fin 1) l)) (v135 (ix2 (0 : Fin 1) l))
            * v140 (ix3 (0 : Fin 1) l d)) + v145 (ix2 (0 : Fin 1) d))) * half := by
  unfold k0_pay6 bn
  simp only [mulf_apply, addf_apply]
  rw [mm3_apply, row_apply]
  simp only [truncf_apply, addf_apply, mulf_apply, subf_apply, row_apply, scale_apply, shapeCast_1ab_ab_apply]
  rfl

/-! ## A slab's index in its buffer: index (0, …) of slab μ is the buffer's index (μ, …) -/

theorem idx_rH0 (b : Fin 1000) (c : Fin 2000) : rH0.toLoadRect.idx (ix3 (0 : Fin 1) b c) = ix3 (0 : Fin 2) b c :=
  funext fun a => Fin.ext (match a with
    | ⟨0, _⟩ => show (0 : ℕ) + 1 * 0 = 0 from rfl
    | ⟨1, _⟩ => show 0 + 1 * b.val = b.val by omega
    | ⟨2, _⟩ => show 0 + 1 * c.val = c.val by omega)
theorem idx_rH1 (b : Fin 1000) (c : Fin 2000) : rH1.toLoadRect.idx (ix3 (0 : Fin 1) b c) = ix3 (1 : Fin 2) b c :=
  funext fun a => Fin.ext (match a with
    | ⟨0, _⟩ => show (1 : ℕ) + 1 * 0 = 1 from rfl
    | ⟨1, _⟩ => show 0 + 1 * b.val = b.val by omega
    | ⟨2, _⟩ => show 0 + 1 * c.val = c.val by omega)
theorem idx_rW10 (b : Fin 2000) (c : Fin 500) : rW10.toLoadRect.idx (ix3 (0 : Fin 1) b c) = ix3 (0 : Fin 2) b c :=
  funext fun a => Fin.ext (match a with
    | ⟨0, _⟩ => show (0 : ℕ) + 1 * 0 = 0 from rfl
    | ⟨1, _⟩ => show 0 + 1 * b.val = b.val by omega
    | ⟨2, _⟩ => show 0 + 1 * c.val = c.val by omega)
theorem idx_rW11 (b : Fin 2000) (c : Fin 500) : rW11.toLoadRect.idx (ix3 (0 : Fin 1) b c) = ix3 (1 : Fin 2) b c :=
  funext fun a => Fin.ext (match a with
    | ⟨0, _⟩ => show (1 : ℕ) + 1 * 0 = 1 from rfl
    | ⟨1, _⟩ => show 0 + 1 * b.val = b.val by omega
    | ⟨2, _⟩ => show 0 + 1 * c.val = c.val by omega)
theorem idx_rA0 (b : Fin 500) : rA0.toLoadRect.idx (ix2 (0 : Fin 1) b) = ix2 (0 : Fin 2) b :=
  funext fun a => Fin.ext (match a with
    | ⟨0, _⟩ => show (0 : ℕ) + 1 * 0 = 0 from rfl
    | ⟨1, _⟩ => show 0 + 1 * b.val = b.val by omega)
theorem idx_rA1 (b : Fin 500) : rA1.toLoadRect.idx (ix2 (0 : Fin 1) b) = ix2 (1 : Fin 2) b :=
  funext fun a => Fin.ext (match a with
    | ⟨0, _⟩ => show (1 : ℕ) + 1 * 0 = 1 from rfl
    | ⟨1, _⟩ => show 0 + 1 * b.val = b.val by omega)
theorem idx_rW20 (b : Fin 500) (c : Fin 128) : rW20.toLoadRect.idx (ix3 (0 : Fin 1) b c) = ix3 (0 : Fin 2) b c :=
  funext fun a => Fin.ext (match a with
    | ⟨0, _⟩ => show (0 : ℕ) + 1 * 0 = 0 from rfl
    | ⟨1, _⟩ => show 0 + 1 * b.val = b.val by omega
    | ⟨2, _⟩ => show 0 + 1 * c.val = c.val by omega)
theorem idx_rW21 (b : Fin 500) (c : Fin 128) : rW21.toLoadRect.idx (ix3 (0 : Fin 1) b c) = ix3 (1 : Fin 2) b c :=
  funext fun a => Fin.ext (match a with
    | ⟨0, _⟩ => show (1 : ℕ) + 1 * 0 = 1 from rfl
    | ⟨1, _⟩ => show 0 + 1 * b.val = b.val by omega
    | ⟨2, _⟩ => show 0 + 1 * c.val = c.val by omega)
theorem idx_rB0 (b : Fin 128) : rB0.toLoadRect.idx (ix2 (0 : Fin 1) b) = ix2 (0 : Fin 2) b :=
  funext fun a => Fin.ext (match a with
    | ⟨0, _⟩ => show (0 : ℕ) + 1 * 0 = 0 from rfl
    | ⟨1, _⟩ => show 0 + 1 * b.val = b.val by omega)
theorem idx_rB1 (b : Fin 128) : rB1.toLoadRect.idx (ix2 (0 : Fin 1) b) = ix2 (1 : Fin 2) b :=
  funext fun a => Fin.ext (match a with
    | ⟨0, _⟩ => show (1 : ℕ) + 1 * 0 = 1 from rfl
    | ⟨1, _⟩ => show 0 + 1 * b.val = b.val by omega)
theorem idx_rWd0 (b : Fin 128) (c : Fin 64) : rWd0.toLoadRect.idx (ix3 (0 : Fin 1) b c) = ix3 (0 : Fin 2) b c :=
  funext fun a => Fin.ext (match a with
    | ⟨0, _⟩ => show (0 : ℕ) + 1 * 0 = 0 from rfl
    | ⟨1, _⟩ => show 0 + 1 * b.val = b.val by omega
    | ⟨2, _⟩ => show 0 + 1 * c.val = c.val by omega)
theorem idx_rWd1 (b : Fin 128) (c : Fin 64) : rWd1.toLoadRect.idx (ix3 (0 : Fin 1) b c) = ix3 (1 : Fin 2) b c :=
  funext fun a => Fin.ext (match a with
    | ⟨0, _⟩ => show (1 : ℕ) + 1 * 0 = 1 from rfl
    | ⟨1, _⟩ => show 0 + 1 * b.val = b.val by omega
    | ⟨2, _⟩ => show 0 + 1 * c.val = c.val by omega)
theorem idx_rC0 (b : Fin 64) : rC0.toLoadRect.idx (ix2 (0 : Fin 1) b) = ix2 (0 : Fin 2) b :=
  funext fun a => Fin.ext (match a with
    | ⟨0, _⟩ => show (0 : ℕ) + 1 * 0 = 0 from rfl
    | ⟨1, _⟩ => show 0 + 1 * b.val = b.val by omega)
theorem idx_rC1 (b : Fin 64) : rC1.toLoadRect.idx (ix2 (0 : Fin 1) b) = ix2 (1 : Fin 2) b :=
  funext fun a => Fin.ext (match a with
    | ⟨0, _⟩ => show (1 : ℕ) + 1 * 0 = 1 from rfl
    | ⟨1, _⟩ => show 0 + 1 * b.val = b.val by omega)

/-! ## The block the body stores -/

/-- The value of one grid point's body at row r, feature d of its block is the encoder's formula over the block of h
    the point was handed and the whole parameter arrays. -/
theorem bodyVal_apply (x0 : Vec Ideal S2x1000x2000 .f32) (x1 : Vec Ideal S2x2000x500 .f32) (x2 x3 x4 x5 x6 : Vec Ideal S2x500 .f32)
    (x7 : Vec Ideal S2x500x128 .f32) (x8 x9 x10 x11 x12 : Vec Ideal S2x128 .f32) (x13 : Vec Ideal S2x128x64 .f32)
    (x14 : Vec Ideal S2x64 .f32) (r : Fin 1000) (d : Fin 64) :
    bodyVal (F := Ideal) x0 x1 x2 x3 x4 x5 x6 x7 x8 x9 x10 x11 x12 x13 x14 (ix2 r d)
      = encRow x0 x1 x2 x3 x4 x5 x6 x7 x8 x9 x10 x11 x12 x13 x14 r d := by
  unfold bodyVal half0
  rw [pay6_apply, pay4_apply, pay1_apply]
  simp only [pay5_apply, pay2_apply, pay3_apply, View.ld, idx_rH0, idx_rH1, idx_rW10, idx_rW11, idx_rA0, idx_rA1, idx_rW20, idx_rW21, idx_rB0, idx_rB1, idx_rWd0, idx_rWd1, idx_rC0, idx_rC1]
  rfl

end Cert.Enc

end
-- ==== Proof.FinalI.lean ====
/-
  The encoder's output array after the run, as one function of the arrays as launched.

  Point t stores block t of the output: rows 1000·t … 1000·t + 999, all 64 columns. The parameter windows' blocks are
  their whole arrays at every point, and block t of h is rows 1000·t … of both modalities, so row r of the stored
  block is the specification's row 1000·t + r of the launched arrays. The fifty blocks tile the 50000 rows, so the
  whole array ends at the specification.
-/
import proofs.«120134_j4784593567773_1_alg».proof.Proof.FrameRun
import proofs.«120134_j4784593567773_1_alg».proof.Proof.EncKernel
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-! ## The printed index maps, decided over the fifty points -/

/-- The output's block index at point t is (t, 0); h's is (0, t, 0). -/
theorem idx_moving : ∀ t : Fin cfg0.N, win0_15.index t (0 : Fin 2) = t.val ∧ win0_15.index t (1 : Fin 2) = 0
    ∧ win0_0.index t (0 : Fin 3) = 0 ∧ win0_0.index t (1 : Fin 3) = t.val ∧ win0_0.index t (2 : Fin 3) = 0 :=
  (by decide +kernel : ∀ t : Fin grid0.N, _)

/-- Every parameter window's block index is zero on every axis, at every point. -/
theorem idx_params : ∀ t : Fin cfg0.N, win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 3) = 0 ∧ win0_13.index t (1 : Fin 3) = 0 ∧ win0_13.index t (2 : Fin 3) = 0
    ∧ win0_14.index t (0 : Fin 2) = 0 ∧ win0_14.index t (1 : Fin 2) = 0 :=
  (by decide +kernel : ∀ t : Fin grid0.N, _)

section blocks
variable (m : (ℓ : Loc nD τ sig) → Buf (Elt F) ℓ)

/-! ## A parameter window's block is its whole array -/

theorem blk_param1 (c : Dev nD) (t : Fin cfg0.N) :
    (iblk m c 1 t : S2x2000x500.Idx → Elt F .f32) = V m c main_arg3 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg3 (((cfg0.win 1).blk t).view.emb y) = V m c main_arg3 y
  congr 1
  funext a; apply Fin.ext
  match a with
  | ⟨0, _⟩ => show win0_1.index t (0 : Fin 3) * 2 + 1 * (y 0).val = (y 0).val; omega
  | ⟨1, _⟩ => show win0_1.index t (1 : Fin 3) * 2000 + 1 * (y 1).val = (y 1).val; omega
  | ⟨2, _⟩ => show win0_1.index t (2 : Fin 3) * 500 + 1 * (y 2).val = (y 2).val; omega

theorem blk_param2 (c : Dev nD) (t : Fin cfg0.N) :
    (iblk m c 2 t : S2x500.Idx → Elt F .f32) = V m c main_arg4 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg4 (((cfg0.win 2).blk t).view.emb y) = V m c main_arg4 y
  congr 1
  funext a; apply Fin.ext
  match a with
  | ⟨0, _⟩ => show win0_2.index t (0 : Fin 2) * 2 + 1 * (y 0).val = (y 0).val; omega
  | ⟨1, _⟩ => show win0_2.index t (1 : Fin 2) * 500 + 1 * (y 1).val = (y 1).val; omega

theorem blk_param3 (c : Dev nD) (t : Fin cfg0.N) :
    (iblk m c 3 t : S2x500.Idx → Elt F .f32) = V m c main_arg5 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg5 (((cfg0.win 3).blk t).view.emb y) = V m c main_arg5 y
  congr 1
  funext a; apply Fin.ext
  match a with
  | ⟨0, _⟩ => show win0_3.index t (0 : Fin 2) * 2 + 1 * (y 0).val = (y 0).val; omega
  | ⟨1, _⟩ => show win0_3.index t (1 : Fin 2) * 500 + 1 * (y 1).val = (y 1).val; omega

theorem blk_param4 (c : Dev nD) (t : Fin cfg0.N) :
    (iblk m c 4 t : S2x500.Idx → Elt F .f32) = V m c main_arg6 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg6 (((cfg0.win 4).blk t).view.emb y) = V m c main_arg6 y
  congr 1
  funext a; apply Fin.ext
  match a with
  | ⟨0, _⟩ => show win0_4.index t (0 : Fin 2) * 2 + 1 * (y 0).val = (y 0).val; omega
  | ⟨1, _⟩ => show win0_4.index t (1 : Fin 2) * 500 + 1 * (y 1).val = (y 1).val; omega

theorem blk_param5 (c : Dev nD) (t : Fin cfg0.N) :
    (iblk m c 5 t : S2x500.Idx → Elt F .f32) = V m c main_arg7 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg7 (((cfg0.win 5).blk t).view.emb y) = V m c main_arg7 y
  congr 1
  funext a; apply Fin.ext
  match a with
  | ⟨0, _⟩ => show win0_5.index t (0 : Fin 2) * 2 + 1 * (y 0).val = (y 0).val; omega
  | ⟨1, _⟩ => show win0_5.index t (1 : Fin 2) * 500 + 1 * (y 1).val = (y 1).val; omega

theorem blk_param6 (c : Dev nD) (t : Fin cfg0.N) :
    (iblk m c 6 t : S2x500.Idx → Elt F .f32) = V m c main_arg8 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg8 (((cfg0.win 6).blk t).view.emb y) = V m c main_arg8 y
  congr 1
  funext a; apply Fin.ext
  match a with
  | ⟨0, _⟩ => show win0_6.index t (0 : Fin 2) * 2 + 1 * (y 0).val = (y 0).val; omega
  | ⟨1, _⟩ => show win0_6.index t (1 : Fin 2) * 500 + 1 * (y 1).val = (y 1).val; omega

theorem blk_param7 (c : Dev nD) (t : Fin cfg0.N) :
    (iblk m c 7 t : S2x500x128.Idx → Elt F .f32) = V m c main_arg9 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg9 (((cfg0.win 7).blk t).view.emb y) = V m c main_arg9 y
  congr 1
  funext a; apply Fin.ext
  match a with
  | ⟨0, _⟩ => show win0_7.index t (0 : Fin 3) * 2 + 1 * (y 0).val = (y 0).val; omega
  | ⟨1, _⟩ => show win0_7.index t (1 : Fin 3) * 500 + 1 * (y 1).val = (y 1).val; omega
  | ⟨2, _⟩ => show win0_7.index t (2 : Fin 3) * 128 + 1 * (y 2).val = (y 2).val; omega

theorem blk_param8 (c : Dev nD) (t : Fin cfg0.N) :
    (iblk m c 8 t : S2x128.Idx → Elt F .f32) = V m c main_arg10 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg10 (((cfg0.win 8).blk t).view.emb y) = V m c main_arg10 y
  congr 1
  funext a; apply Fin.ext
  match a with
  | ⟨0, _⟩ => show win0_8.index t (0 : Fin 2) * 2 + 1 * (y 0).val = (y 0).val; omega
  | ⟨1, _⟩ => show win0_8.index t (1 : Fin 2) * 128 + 1 * (y 1).val = (y 1).val; omega

theorem blk_param9 (c : Dev nD) (t : Fin cfg0.N) :
    (iblk m c 9 t : S2x128.Idx → Elt F .f32) = V m c main_arg11 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg11 (((cfg0.win 9).blk t).view.emb y) = V m c main_arg11 y
  congr 1
  funext a; apply Fin.ext
  match a with
  | ⟨0, _⟩ => show win0_9.index t (0 : Fin 2) * 2 + 1 * (y 0).val = (y 0).val; omega
  | ⟨1, _⟩ => show win0_9.index t (1 : Fin 2) * 128 + 1 * (y 1).val = (y 1).val; omega

theorem blk_param10 (c : Dev nD) (t : Fin cfg0.N) :
    (iblk m c 10 t : S2x128.Idx → Elt F .f32) = V m c main_arg12 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg12 (((cfg0.win 10).blk t).view.emb y) = V m c main_arg12 y
  congr 1
  funext a; apply Fin.ext
  match a with
  | ⟨0, _⟩ => show win0_10.index t (0 : Fin 2) * 2 + 1 * (y 0).val = (y 0).val; omega
  | ⟨1, _⟩ => show win0_10.index t (1 : Fin 2) * 128 + 1 * (y 1).val = (y 1).val; omega

theorem blk_param11 (c : Dev nD) (t : Fin cfg0.N) :
    (iblk m c 11 t : S2x128.Idx → Elt F .f32) = V m c main_arg13 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg13 (((cfg0.win 11).blk t).view.emb y) = V m c main_arg13 y
  congr 1
  funext a; apply Fin.ext
  match a with
  | ⟨0, _⟩ => show win0_11.index t (0 : Fin 2) * 2 + 1 * (y 0).val = (y 0).val; omega
  | ⟨1, _⟩ => show win0_11.index t (1 : Fin 2) * 128 + 1 * (y 1).val = (y 1).val; omega

theorem blk_param12 (c : Dev nD) (t : Fin cfg0.N) :
    (iblk m c 12 t : S2x128.Idx → Elt F .f32) = V m c main_arg14 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg14 (((cfg0.win 12).blk t).view.emb y) = V m c main_arg14 y
  congr 1
  funext a; apply Fin.ext
  match a with
  | ⟨0, _⟩ => show win0_12.index t (0 : Fin 2) * 2 + 1 * (y 0).val = (y 0).val; omega
  | ⟨1, _⟩ => show win0_12.index t (1 : Fin 2) * 128 + 1 * (y 1).val = (y 1).val; omega

theorem blk_param13 (c : Dev nD) (t : Fin cfg0.N) :
    (iblk m c 13 t : S2x128x64.Idx → Elt F .f32) = V m c main_arg15 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg15 (((cfg0.win 13).blk t).view.emb y) = V m c main_arg15 y
  congr 1
  funext a; apply Fin.ext
  match a with
  | ⟨0, _⟩ => show win0_13.index t (0 : Fin 3) * 2 + 1 * (y 0).val = (y 0).val; omega
  | ⟨1, _⟩ => show win0_13.index t (1 : Fin 3) * 128 + 1 * (y 1).val = (y 1).val; omega
  | ⟨2, _⟩ => show win0_13.index t (2 : Fin 3) * 64 + 1 * (y 2).val = (y 2).val; omega

theorem blk_param14 (c : Dev nD) (t : Fin cfg0.N) :
    (iblk m c 14 t : S2x64.Idx → Elt F .f32) = V m c main_arg16 := by
  obtain ⟨p1_0, p1_1, p1_2, p2_0, p2_1, p3_0, p3_1, p4_0, p4_1, p5_0, p5_1, p6_0, p6_1, p7_0, p7_1, p7_2, p8_0, p8_1, p9_0, p9_1, p10_0, p10_1, p11_0, p11_1, p12_0, p12_1, p13_0, p13_1, p13_2, p14_0, p14_1⟩ := idx_params t
  funext y
  show V m c main_arg16 (((cfg0.win 14).blk t).view.emb y) = V m c main_arg16 y
  congr 1
  funext a; apply Fin.ext
  match a with
  | ⟨0, _⟩ => show win0_14.index t (0 : Fin 2) * 2 + 1 * (y 0).val = (y 0).val; omega
  | ⟨1, _⟩ => show win0_14.index t (1 : Fin 2) * 64 + 1 * (y 1).val = (y 1).val; omega

/-- Block t of h: row r of the block is row 1000·t + r of the array, in both modalities. -/
theorem blk_h (c : Dev nD) (t : Fin cfg0.N) (μ : Fin 2) (r : Fin 1000) (k : Fin 2000) (n : Fin 50000) (hn : n.val = 1000 * t.val + r.val) :
    (iblk m c 0 t : S2x1000x2000.Idx → Elt F .f32) (ix3 μ r k) = V m c main_arg0 (ix3 μ n k) := by
  obtain ⟨-, -, h0, h1, h2⟩ := idx_moving t
  show V m c main_arg0 (((cfg0.win 0).blk t).view.emb (ix3 μ r k)) = V m c main_arg0 (ix3 μ n k)
  congr 1
  funext a; apply Fin.ext
  match a with
  | ⟨0, _⟩ => show win0_0.index t (0 : Fin 3) * 2 + 1 * μ.val = μ.val; omega
  | ⟨1, _⟩ => show win0_0.index t (1 : Fin 3) * 1000 + 1 * r.val = n.val; omega
  | ⟨2, _⟩ => show win0_0.index t (2 : Fin 3) * 2000 + 1 * k.val = k.val; omega

end blocks

/-! ## The array, at the exact instance -/

variable (m : (ℓ : Loc nD τ sig) → Buf (Elt Ideal) ℓ) (ρ : Dev nD → PrngReg)

/-- The encoder's output as a function of the arrays as launched: the specification, row by row. -/
def featOf (c : Dev nD) : S50000x64.Idx → EReal := fun i =>
  Cert.Enc.enc (V m c main_arg0) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (i 0) (i 1)

theorem hz2 : (![0, 0] : Fin 2 → Nat) = fun _ => 0 := funext fun a => by fin_cases a <;> rfl

/-- What point t writes back is block t of `featOf`. -/
theorem flushed_eq (c : Dev nD) (t : Fin cfg0.N) :
    (dats m 0 c).flushed 15 t = ((cfg0.win 15).blk t).view.read (Elt Ideal) (featOf m c) := by
  show (cfg0.win 15).cut (grid0.coords t) ((dats m 0 c).after 15 t) = _
  rw [after_out]
  unfold out15
  rw [View.canon_unit_zero hz2]
  funext j
  obtain ⟨r, d, rfl⟩ : ∃ (r : Fin 1000) (d : Fin 64), j = ix2 r d := ⟨j 0, j 1, eq_ix2 j⟩
  show bodyVal (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d)
      = featOf m c (((cfg0.win 15).blk t).view.emb (ix2 r d))
  rw [Cert.Enc.bodyVal_apply]
  rw [blk_param1 m c t, blk_param2 m c t, blk_param3 m c t, blk_param4 m c t, blk_param5 m c t, blk_param6 m c t, blk_param7 m c t, blk_param8 m c t, blk_param9 m c t, blk_param10 m c t, blk_param11 m c t, blk_param12 m c t, blk_param13 m c t, blk_param14 m c t]
  obtain ⟨i0, i1, -, -, -⟩ := idx_moving t
  have ht : t.val < 50 := lt_of_lt_of_eq t.isLt N_0
  have e0 : (((cfg0.win 15).blk t).view.emb (ix2 r d)) 0 = (⟨1000 * t.val + r.val, by omega⟩ : Fin 50000) :=
    Fin.ext (by show win0_15.index t (0 : Fin 2) * 1000 + 1 * r.val = 1000 * t.val + r.val; omega)
  have e1 : (((cfg0.win 15).blk t).view.emb (ix2 r d)) 1 = d :=
    Fin.ext (by show win0_15.index t (1 : Fin 2) * 64 + 1 * d.val = d.val; omega)
  unfold featOf
  simp only [e0, e1]
  exact Cert.Enc.encN_of_rows _ _ _ _ _ _ _ _ _ _ _ _ _ _ _ _ (⟨1000 * t.val + r.val, by omega⟩ : Fin 50000) r
    (fun μ k => blk_h m c t μ r k _ rfl) d

/-- An index of the array lies in point t's block iff its row is among the block's thousand rows. -/
theorem mem_blk15 (t : Fin cfg0.N) (i : S50000x64.Idx) :
    i ∈ ((cfg0.win 15).blk t).view.set ↔ ∀ a : Fin 2, win0_15.index t a * S1000x64.size a ≤ (i a).val ∧ (i a).val < win0_15.index t a * S1000x64.size a + S1000x64.size a := by
  show i ∈ ((View.whole main_v0).slice (win0_15.rect t)).set ↔ _
  rw [View.set_slice_whole, Rect.mem_set_unit]
  exact Iff.rfl

/-- The fifty blocks tile the array: row n lies in the block of point n / 1000. -/
theorem cover15_arr (i : S50000x64.Idx) :
    ∃ t : Fin cfg0.N, (cfg0.win 15).flush t = true ∧ i ∈ ((cfg0.win 15).blk t).view.set := by
  have hi0 : (i 0).val < 50000 := (i 0).isLt
  have hi1 : (i 1).val < 64 := (i 1).isLt
  have hN : (i 0).val / 1000 < cfg0.N := by rw [show cfg0.N = 50 from N_0]; omega
  refine ⟨⟨(i 0).val / 1000, hN⟩, flush0_15 _, ?_⟩
  obtain ⟨i0, i1, -, -, -⟩ := idx_moving ⟨(i 0).val / 1000, hN⟩
  rw [mem_blk15]
  intro a
  match a with
  | ⟨0, _⟩ => show win0_15.index ⟨(i 0).val / 1000, hN⟩ (0 : Fin 2) * 1000 ≤ (i 0).val ∧ (i 0).val < win0_15.index ⟨(i 0).val / 1000, hN⟩ (0 : Fin 2) * 1000 + 1000; simp only [i0]; omega
  | ⟨1, _⟩ => show win0_15.index ⟨(i 0).val / 1000, hN⟩ (1 : Fin 2) * 64 ≤ (i 1).val ∧ (i 1).val < win0_15.index ⟨(i 0).val / 1000, hN⟩ (1 : Fin 2) * 64 + 64; simp only [i1]; omega

/-- The encoder's output array after the region is the specification of the arrays as launched. -/
theorem final15 (c : Dev nD) : (dats m 0 c).arrAt 15 cfg0.N = featOf m c :=
  (dats m 0 c).arrAt_eq_of_cover 15 (featOf m c) (fun t _ => flushed_eq m c t) cover15_arr

end Cert.KernelIdeal.Hand

end
-- ==== Proof.TailDef.lean ====
import proofs.«120134_j4784593567773_1_alg».proof.Proof.Gen.KernelIdeal
import Idealize.ShloMosaic.PureOps.Ideal

/-!
# The graph convolution after the encoder, as one function

Both programs finish with the same three-layer graph convolution over the encoder's output `feat`
(50000 nodes × 64 features) and the edge lists `src`, `dst` (1 600 000 edges):

* the out-degree of a node is the number of edges whose `src` is that node, the in-degree the number whose
  `dst` is; each is clipped below at 1 and `cs`, `cd` are the reciprocal square roots, one per node;
* a layer with weights `W` and bias `b` maps node features `x` to
  `(scatter-add over dst of ((x · cs) W) gathered at src) · cd + b`,
  where an edge's source index is first wrapped (a negative index counts from the end);
* the first two layers are followed by `max(·, 0)`, the third is not.

`tail` is that computation on extended reals, written operation by operation in the order the programs
perform it. Nothing is proved ABOUT it: the two programs are compared by showing that each one's result is
`tail` of its own encoder output, so that equal encoder outputs give equal results.
-/

noncomputable section

namespace Cert.Tail

open Idealize.ShloMosaic Cert.KernelIdeal Cert.KernelIdeal.Facts₀

/-- One per node: the reciprocal square root of the number of edges whose index (in `idx`) is that node,
    that number first clipped below at 1; as a column. -/
def invSqrtDeg (idx : IVec S1600000 32) : FVec Ideal S50000x1 .f32 :=
  broadcastInDim S50000x1 ![0] bcast_S50000_S50000x1_0
    (Host.rsqrt (F := Ideal)
      (maximumf (F := Ideal)
        (broadcastInDim S50000 ![] bcast_S_S50000 (id (constant (F := Ideal) S_ .f32 0x3F800000#32)))
        (Host.scatterAdd (F := Ideal) scatter_S50000_S1600000x1_S1600000_n_0_0_1
          (broadcastInDim S50000 ![] bcast_S_S50000 (constant (F := Ideal) S_ .f32 0x00000000#32))
          (broadcastInDim S1600000x1 ![0] bcast_S1600000_S1600000x1_0 idx)
          (broadcastInDim S1600000 ![] bcast_S_S1600000 (constant (F := Ideal) S_ .f32 0x3F800000#32)))))

/-- The edges' source indices as gather indices: a negative index has the number of nodes added to it. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32)))
      src)

/-- The three layers on the encoder's output. -/
def tail (feat : FVec Ideal S50000x64 .f32) (src dst : IVec S1600000 32)
    (W0 : FVec Ideal S64x64 .f32) (b0 : FVec Ideal S64 .f32)
    (W1 : FVec Ideal S64x32 .f32) (b1 : FVec Ideal S32 .f32)
    (W2 : FVec Ideal S32x4 .f32) (b2 : FVec Ideal S4 .f32) : FVec Ideal S50000x4 .f32 :=
  let cs : FVec Ideal S50000x1 .f32 := invSqrtDeg src
  let cd : FVec Ideal S50000x1 .f32 := invSqrtDeg dst
  -- layer 1: 64 → 64 features, then max(·, 0)
  let h1 : FVec Ideal S50000x64 .f32 :=
    maximumf (F := Ideal)
      (addf (F := Ideal)
        (mulf (F := Ideal)
          (Host.scatterAdd (F := Ideal) scatter_S50000x64_S1600000x1_S1600000x64_1_0_0_1
            (broadcastInDim S50000x64 ![] bcast_S_S50000x64 (constant (F := Ideal) S_ .f32 0x00000000#32))
            (broadcastInDim S1600000x1 ![0] bcast_S1600000_S1600000x1_0 dst)
            (Host.gather gather_S50000x64_S1600000x1_S1600000x64_1_0_n_n_0_1_164
              (Host.dotGeneral (F := Ideal) dot_S50000x64_S64x64_S50000x64_1_0_0_1_n_n none
                (mulf (F := Ideal) feat (broadcastInDim S50000x64 ![0, 1] bcast_S50000x1_S50000x64_0_1 cs)) W0)
              (wrapIdx src)))
          (broadcastInDim S50000x64 ![0, 1] bcast_S50000x1_S50000x64_0_1 cd))
        (broadcastInDim S50000x64 ![0, 1] bcast_S1x64_S50000x64_0_1 (broadcastInDim S1x64 ![1] bcast_S64_S1x64_1 b0)))
      (broadcastInDim S50000x64 ![] bcast_S_S50000x64 (constant (F := Ideal) S_ .f32 0x00000000#32))
  -- layer 2: 64 → 32 features, then max(·, 0)
  let h2 : FVec Ideal S50000x32 .f32 :=
    maximumf (F := Ideal)
      (addf (F := Ideal)
        (mulf (F := Ideal)
          (Host.scatterAdd (F := Ideal) scatter_S50000x32_S1600000x1_S1600000x32_1_0_0_1
            (broadcastInDim S50000x32 ![] bcast_S_S50000x32 (constant (F := Ideal) S_ .f32 0x00000000#32))
            (broadcastInDim S1600000x1 ![0] bcast_S1600000_S1600000x1_0 dst)
            (Host.gather gather_S50000x32_S1600000x1_S1600000x32_1_0_n_n_0_1_132
              (Host.dotGeneral (F := Ideal) dot_S50000x64_S64x32_S50000x32_1_0_0_1_n_n none
                (mulf (F := Ideal) h1 (broadcastInDim S50000x64 ![0, 1] bcast_S50000x1_S50000x64_0_1 cs)) W1)
              (wrapIdx src)))
          (broadcastInDim S50000x32 ![0, 1] bcast_S50000x1_S50000x32_0_1 cd))
        (broadcastInDim S50000x32 ![0, 1] bcast_S1x32_S50000x32_0_1 (broadcastInDim S1x32 ![1] bcast_S32_S1x32_1 b1)))
      (broadcastInDim S50000x32 ![] bcast_S_S50000x32 (constant (F := Ideal) S_ .f32 0x00000000#32))
  -- layer 3: 32 → 4 features
  addf (F := Ideal)
    (mulf (F := Ideal)
      (Host.scatterAdd (F := Ideal) scatter_S50000x4_S1600000x1_S1600000x4_1_0_0_1
        (broadcastInDim S50000x4 ![] bcast_S_S50000x4 (constant (F := Ideal) S_ .f32 0x00000000#32))
        (broadcastInDim S1600000x1 ![0] bcast_S1600000_S1600000x1_0 dst)
        (Host.gather gather_S50000x4_S1600000x1_S1600000x4_1_0_n_n_0_1_14
          (Host.dotGeneral (F := Ideal) dot_S50000x32_S32x4_S50000x4_1_0_0_1_n_n none
            (mulf (F := Ideal) h2 (broadcastInDim S50000x32 ![0, 1] bcast_S50000x1_S50000x32_0_1 cs)) W2)
          (wrapIdx src)))
      (broadcastInDim S50000x4 ![0, 1] bcast_S50000x1_S50000x4_0_1 cd))
    (broadcastInDim S50000x4 ![0, 1] bcast_S1x4_S50000x4_0_1 (broadcastInDim S1x4 ![1] bcast_S4_S1x4_1 b2))

end Cert.Tail

end
-- ==== Proof.ValueI.lean ====
/-
  The program's result as one function of the arrays as launched.

  After the region the encoder's output array holds the specification of the launched arrays (FinalI); the later
  operations read that array, the two edge lists and the six graph-layer parameters — none of which the region or any
  later operation writes — and leave in the result buffer the graph part `tail` of them. What the later operations
  compute from a given state is taken here as the hypothesis `TailIs`; it is a statement about those operations alone.
-/
import proofs.«120134_j4784593567773_1_alg».proof.Proof.FinalI
import proofs.«120134_j4784593567773_1_alg».proof.Proof.TailDef

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- From any state, the later operations leave in the result buffer the graph part of the feature array, the edge
    lists and the graph-layer parameters found in that state. -/
def TailIs : Prop := ∀ X : Valuation τ sig (Elt Ideal),
  StableHlo.after (List.flatten (tailOps (F := Ideal))) X (Proc.devRef .tc main_v69)
    = Cert.Tail.tail (X (Proc.devRef .tc main_v0)) (X (Proc.devRef .tc main_arg1)) (X (Proc.devRef .tc main_arg2)) (X (Proc.devRef .tc main_arg17)) (X (Proc.devRef .tc main_arg18)) (X (Proc.devRef .tc main_arg19)) (X (Proc.devRef .tc main_arg20)) (X (Proc.devRef .tc main_arg21)) (X (Proc.devRef .tc main_arg22))

/-- The program's result: the graph part of the encoder's specification of the launched arrays. -/
def resultOf (c : Dev nD) : FVec Ideal S50000x4 .f32 :=
  Cert.Tail.tail (featOf m c) (m ((c : Thread nD τ).loc main_arg1)) (m ((c : Thread nD τ).loc main_arg2)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- Equal arguments, equal graph parts. -/
theorem tail_congr {f f' : FVec Ideal S50000x64 .f32} {s s' d d' : IVec S1600000 32}
    {W0 W0' : FVec Ideal S64x64 .f32} {b0 b0' : FVec Ideal S64 .f32} {W1 W1' : FVec Ideal S64x32 .f32} {b1 b1' : FVec Ideal S32 .f32}
    {W2 W2' : FVec Ideal S32x4 .f32} {b2 b2' : FVec Ideal S4 .f32}
    (h0 : f = f') (h1 : s = s') (h2 : d = d') (h3 : W0 = W0') (h4 : b0 = b0') (h5 : W1 = W1') (h6 : b1 = b1') (h7 : W2 = W2') (h8 : b2 = b2') :
    Cert.Tail.tail f s d W0 b0 W1 b1 W2 b2 = Cert.Tail.tail f' s' d' W0' b0' W1' b1' W2' b2' := by
  subst h0 h1 h2 h3 h4 h5 h6 h7 h8; rfl

/-- The state the later operations start from keeps an argument that is no array of the region as launched. -/
theorem exit_arg (c : Dev nD) (A : (w : Fin 16) → Buf (Elt Ideal) ((spec0 w).arr.view.loc (c.tc : Thread nD τ)))
    (b : Ref sig .tc) (hne : ∀ w, Pipeline.arrRef spec0 w ≠ b) :
    Pipeline.withArrays spec0 c (V0 m c) A (Proc.devRef .tc b) = m ((c : Thread nD τ).loc b) :=
  (Pipeline.withArrays_of_ne spec0 c (V0 m c) A b hne).trans rfl

/-- The result buffer after the whole program. -/
theorem kernel_value (hT : TailIs) (c : Dev nD) :
    Pipeline.afterTail₀ cfgs (dats m) 0 (V0 m) tailOps c main_v69 = resultOf m c := by
  unfold Pipeline.afterTail₀
  refine (hT _).trans ?_
  unfold resultOf
  exact tail_congr ((Pipeline.withArrays_arr spec0 launch0.win.arr_inj c _ _ 15).trans (final15 m c))
    (exit_arg m c _ main_arg1 (by decide))
    (exit_arg m c _ main_arg2 (by decide))
    (exit_arg m c _ main_arg17 (by decide))
    (exit_arg m c _ main_arg18 (by decide))
    (exit_arg m c _ main_arg19 (by decide))
    (exit_arg m c _ main_arg20 (by decide))
    (exit_arg m c _ main_arg21 (by decide))
    (exit_arg m c _ main_arg22 (by decide))

end Cert.KernelIdeal.Hand

end
-- ==== Proof.EncRef.lean ====
/-
  The reference program's encoder stage is the encoder `enc`.

  The reference computes both modalities at once, as arrays with a leading modality axis: a batched product
  Σ_k h[μ,n,k]·W1[μ,k,j], the bias and the four normalisation vectors broadcast from [2, C] through [2, 1, C] to
  [2, 50000, C], the scale g·rsqrt(v + ε) formed on the [2, 1, C] arrays, the same again for the second layer and
  the decoder, then a sum over the modality axis from the initial value 0 and a division by 2.0. Read at one index
  (μ, n, ·) every broadcast is the parameter at (μ, ·) and every product a sum over the contracted coordinate, so each
  stage is, entry by entry and with the same grouping, the corresponding layer of the specification (`ref_lay1`,
  `ref_lay2`, `ref_dec`). The last two operations are where the reference's arithmetic differs in form: its
  0 + Σ_{μ<2} dec_μ regroups as (0 + dec₀) + dec₁ by associativity of +, and x / 2.0 = x · 0.5 on every extended
  real (`ref_enc`). Nothing here needs the inputs finite.

  The first section identifies the index maps the generated read lemmas name (one per broadcast, and a left and a
  right one per product) at an index given by its coordinates.
-/
import proofs.«120134_j4784593567773_1_alg».proof.Proof.Gen.ReferenceIdeal.Read
import proofs.«120134_j4784593567773_1_alg».proof.Proof.EncSpec

noncomputable section

namespace Cert.Enc

open Idealize.ShloMosaic Idealize.ShloMosaic.ValueIdx Cert.ReferenceIdeal Cert.ReferenceIdeal.Read
open scoped BigOperators

/-! ## The reference's index maps at indices given by coordinates -/

theorem lidx_main_v0_ix (a0 : Fin 2) (a1 : Fin 50000) (a2 : Fin 500) (k : Fin 2000) : lidx_main_v0 (ix3 a0 a1 a2) k = ix3 a0 a1 k :=
  funext fun a => Fin.ext (by match a with | ⟨0, _⟩ => rfl | ⟨1, _⟩ => rfl | ⟨2, _⟩ => rfl)
theorem ridx_main_v0_ix (a0 : Fin 2) (a1 : Fin 50000) (a2 : Fin 500) (k : Fin 2000) : ridx_main_v0 (ix3 a0 a1 a2) k = ix3 a0 k a2 :=
  funext fun a => Fin.ext (by match a with | ⟨0, _⟩ => rfl | ⟨1, _⟩ => rfl | ⟨2, _⟩ => rfl)
theorem idx_main_v1_ix (a0 : Fin 2) (a1 : Fin 1) (a2 : Fin 500) : idx_main_v1 (ix3 a0 a1 a2) = ix2 a0 a2 :=
  funext fun a => Fin.ext (by match a with | ⟨0, _⟩ => rfl | ⟨1, _⟩ => rfl)
theorem idx_main_v2_ix (a0 : Fin 2) (a1 : Fin 50000) (a2 : Fin 500) : idx_main_v2 (ix3 a0 a1 a2) = ix3 a0 (0 : Fin 1) a2 :=
  funext fun a => Fin.ext (by match a with | ⟨0, _⟩ => rfl | ⟨1, _⟩ => rfl | ⟨2, _⟩ => rfl)
theorem idx_main_v4_ix (a0 : Fin 2) (a1 : Fin 1) (a2 : Fin 500) : idx_main_v4 (ix3 a0 a1 a2) = ix2 a0 a2 :=
  funext fun a => Fin.ext (by match a with | ⟨0, _⟩ => rfl | ⟨1, _⟩ => rfl)
theorem idx_main_v5_ix (a0 : Fin 2) (a1 : Fin 50000) (a2 : Fin 500) : idx_main_v5 (ix3 a0 a1 a2) = ix3 a0 (0 : Fin 1) a2 :=
  funext fun a => Fin.ext (by match a with | ⟨0, _⟩ => rfl | ⟨1, _⟩ => rfl | ⟨2, _⟩ => rfl)
theorem idx_main_v7_ix (a0 : Fin 2) (a1 : Fin 1) (a2 : Fin 500) : idx_main_v7 (ix3 a0 a1 a2) = ix2 a0 a2 :=
  funext fun a => Fin.ext (by match a with | ⟨0, _⟩ => rfl | ⟨1, _⟩ => rfl)
theorem idx_main_v8_ix (a0 : Fin 2) (a1 : Fin 1) (a2 : Fin 500) : idx_main_v8 (ix3 a0 a1 a2) = ix2 a0 a2 :=
  funext fun a => Fin.ext (by match a with | ⟨0, _⟩ => rfl | ⟨1, _⟩ => rfl)
theorem idx_main_v13_ix (a0 : Fin 2) (a1 : Fin 50000) (a2 : Fin 500) : idx_main_v13 (ix3 a0 a1 a2) = ix3 a0 (0 : Fin 1) a2 :=
  funext fun a => Fin.ext (by match a with | ⟨0, _⟩ => rfl | ⟨1, _⟩ => rfl | ⟨2, _⟩ => rfl)
theorem idx_main_v15_ix (a0 : Fin 2) (a1 : Fin 1) (a2 : Fin 500) : idx_main_v15 (ix3 a0 a1 a2) = ix2 a0 a2 :=
  funext fun a => Fin.ext (by match a with | ⟨0, _⟩ => rfl | ⟨1, _⟩ => rfl)
theorem idx_main_v16_ix (a0 : Fin 2) (a1 : Fin 50000) (a2 : Fin 500) : idx_main_v16 (ix3 a0 a1 a2) = ix3 a0 (0 : Fin 1) a2 :=
  funext fun a => Fin.ext (by match a with | ⟨0, _⟩ => rfl | ⟨1, _⟩ => rfl | ⟨2, _⟩ => rfl)
theorem lidx_main_v18_ix (a0 : Fin 2) (a1 : Fin 50000) (a2 : Fin 128) (k : Fin 500) : lidx_main_v18 (ix3 a0 a1 a2) k = ix3 a0 a1 k :=
  funext fun a => Fin.ext (by match a with | ⟨0, _⟩ => rfl | ⟨1, _⟩ => rfl | ⟨2, _⟩ => rfl)
theorem ridx_main_v18_ix (a0 : Fin 2) (a1 : Fin 50000) (a2 : Fin 128) (k : Fin 500) : ridx_main_v18 (ix3 a0 a1 a2) k = ix3 a0 k a2 :=
  funext fun a => Fin.ext (by match a with | ⟨0, _⟩ => rfl | ⟨1, _⟩ => rfl | ⟨2, _⟩ => rfl)
theorem idx_main_v19_ix (a0 : Fin 2) (a1 : Fin 1) (a2 : Fin 128) : idx_main_v19 (ix3 a0 a1 a2) = ix2 a0 a2 :=
  funext fun a => Fin.ext (by match a with | ⟨0, _⟩ => rfl | ⟨1, _⟩ => rfl)
theorem idx_main_v20_ix (a0 : Fin 2) (a1 : Fin 50000) (a2 : Fin 128) : idx_main_v20 (ix3 a0 a1 a2) = ix3 a0 (0 : Fin 1) a2 :=
  funext fun a => Fin.ext (by match a with | ⟨0, _⟩ => rfl | ⟨1, _⟩ => rfl | ⟨2, _⟩ => rfl)
theorem idx_main_v22_ix (a0 : Fin 2) (a1 : Fin 1) (a2 : Fin 128) : idx_main_v22 (ix3 a0 a1 a2) = ix2 a0 a2 :=
  funext fun a => Fin.ext (by match a with | ⟨0, _⟩ => rfl | ⟨1, _⟩ => rfl)
theorem idx_main_v23_ix (a0 : Fin 2) (a1 : Fin 50000) (a2 : Fin 128) : idx_main_v23 (ix3 a0 a1 a2) = ix3 a0 (0 : Fin 1) a2 :=
  funext fun a => Fin.ext (by match a with | ⟨0, _⟩ => rfl | ⟨1, _⟩ => rfl | ⟨2, _⟩ => rfl)
theorem idx_main_v25_ix (a0 : Fin 2) (a1 : Fin 1) (a2 : Fin 128) : idx_main_v25 (ix3 a0 a1 a2) = ix2 a0 a2 :=
  funext fun a => Fin.ext (by match a with | ⟨0, _⟩ => rfl | ⟨1, _⟩ => rfl)
theorem idx_main_v26_ix (a0 : Fin 2) (a1 : Fin 1) (a2 : Fin 128) : idx_main_v26 (ix3 a0 a1 a2) = ix2 a0 a2 :=
  funext fun a => Fin.ext (by match a with | ⟨0, _⟩ => rfl | ⟨1, _⟩ => rfl)
theorem idx_main_v31_ix (a0 : Fin 2) (a1 : Fin 50000) (a2 : Fin 128) : idx_main_v31 (ix3 a0 a1 a2) = ix3 a0 (0 : Fin 1) a2 :=
  funext fun a => Fin.ext (by match a with | ⟨0, _⟩ => rfl | ⟨1, _⟩ => rfl | ⟨2, _⟩ => rfl)
theorem idx_main_v33_ix (a0 : Fin 2) (a1 : Fin 1) (a2 : Fin 128) : idx_main_v33 (ix3 a0 a1 a2) = ix2 a0 a2 :=
  funext fun a => Fin.ext (by match a with | ⟨0, _⟩ => rfl | ⟨1, _⟩ => rfl)
theorem idx_main_v34_ix (a0 : Fin 2) (a1 : Fin 50000) (a2 : Fin 128) : idx_main_v34 (ix3 a0 a1 a2) = ix3 a0 (0 : Fin 1) a2 :=
  funext fun a => Fin.ext (by match a with | ⟨0, _⟩ => rfl | ⟨1, _⟩ => rfl | ⟨2, _⟩ => rfl)
theorem lidx_main_v36_ix (a0 : Fin 2) (a1 : Fin 50000) (a2 : Fin 64) (k : Fin 128) : lidx_main_v36 (ix3 a0 a1 a2) k = ix3 a0 a1 k :=
  funext fun a => Fin.ext (by match a with | ⟨0, _⟩ => rfl | ⟨1, _⟩ => rfl | ⟨2, _⟩ => rfl)
theorem ridx_main_v36_ix (a0 : Fin 2) (a1 : Fin 50000) (a2 : Fin 64) (k : Fin 128) : ridx_main_v36 (ix3 a0 a1 a2) k = ix3 a0 k a2 :=
  funext fun a => Fin.ext (by match a with | ⟨0, _⟩ => rfl | ⟨1, _⟩ => rfl | ⟨2, _⟩ => rfl)
theorem idx_main_v37_ix (a0 : Fin 2) (a1 : Fin 1) (a2 : Fin 64) : idx_main_v37 (ix3 a0 a1 a2) = ix2 a0 a2 :=
  funext fun a => Fin.ext (by match a with | ⟨0, _⟩ => rfl | ⟨1, _⟩ => rfl)
theorem idx_main_v38_ix (a0 : Fin 2) (a1 : Fin 50000) (a2 : Fin 64) : idx_main_v38 (ix3 a0 a1 a2) = ix3 a0 (0 : Fin 1) a2 :=
  funext fun a => Fin.ext (by match a with | ⟨0, _⟩ => rfl | ⟨1, _⟩ => rfl | ⟨2, _⟩ => rfl)
theorem idx_main_v40_ix (a0 : Fin 50000) (a1 : Fin 64) (k : Fin 2) : idx_main_v40 (ix2 a0 a1) k = ix3 k a0 a1 :=
  funext fun a => Fin.ext (by match a with | ⟨0, _⟩ => rfl | ⟨1, _⟩ => rfl | ⟨2, _⟩ => rfl)

/-! ## The reference's stages are the specification's layers -/

/-- The first normalised layer. -/
theorem ref_lay1 (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal)) (μ : Fin 2) (n : Fin 50000) (j : Fin 500) :
    val_main_v17 (F := Ideal) x0 x3 x4 x5 x6 x7 x8 (ix3 μ n j) = lay1 50000 x0 x3 x4 x5 x6 x7 x8 μ n j := by
  simp only [val_main_v17_apply, val_main_v14_apply, val_main_v16_apply, val_main_v15_apply, val_main_v6_apply, val_main_v13_apply,
    val_main_v12_apply, val_main_v7_apply, val_main_v11_apply, val_main_v10_apply, val_main_v8_apply, val_main_v9_apply, val_main_cst_apply,
    val_main_v3_apply, val_main_v5_apply, val_main_v4_apply, val_main_v0_apply, val_main_v2_apply, val_main_v1_apply,
    lidx_main_v0_ix, ridx_main_v0_ix, idx_main_v1_ix, idx_main_v2_ix, idx_main_v4_ix, idx_main_v5_ix, idx_main_v7_ix, idx_main_v8_ix, idx_main_v13_ix, idx_main_v15_ix, idx_main_v16_ix]
  rfl

/-- The second normalised layer. -/
theorem ref_lay2 (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal)) (x9 : (⟨S2x500x128, .f32⟩ : BufTy).Contents (Elt Ideal)) (x10 x11 x12 x13 x14 : (⟨S2x128, .f32⟩ : BufTy).Contents (Elt Ideal)) (μ : Fin 2) (n : Fin 50000) (l : Fin 128) :
    val_main_v35 (F := Ideal) x0 x3 x4 x5 x6 x7 x8 x9 x10 x11 x12 x13 x14 (ix3 μ n l) = lay2 50000 x0 x3 x4 x5 x6 x7 x8 x9 x10 x11 x12 x13 x14 μ n l := by
  simp only [val_main_v35_apply, val_main_v32_apply, val_main_v34_apply, val_main_v33_apply, val_main_v24_apply, val_main_v31_apply,
    val_main_v30_apply, val_main_v25_apply, val_main_v29_apply, val_main_v28_apply, val_main_v26_apply, val_main_v27_apply, val_main_cst_0_apply,
    val_main_v21_apply, val_main_v23_apply, val_main_v22_apply, val_main_v18_apply, val_main_v20_apply, val_main_v19_apply,
    lidx_main_v18_ix, ridx_main_v18_ix, idx_main_v19_ix, idx_main_v20_ix, idx_main_v22_ix, idx_main_v23_ix, idx_main_v25_ix, idx_main_v26_ix, idx_main_v31_ix, idx_main_v33_ix, idx_main_v34_ix,
    ref_lay1]
  rfl

/-- The decoder. -/
theorem ref_dec (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal)) (x9 : (⟨S2x500x128, .f32⟩ : BufTy).Contents (Elt Ideal)) (x10 x11 x12 x13 x14 : (⟨S2x128, .f32⟩ : BufTy).Contents (Elt Ideal)) (x15 : (⟨S2x128x64, .f32⟩ : BufTy).Contents (Elt Ideal)) (x16 : (⟨S2x64, .f32⟩ : BufTy).Contents (Elt Ideal)) (μ : Fin 2) (n : Fin 50000) (d : Fin 64) :
    val_main_v39 (F := Ideal) x0 x3 x4 x5 x6 x7 x8 x9 x10 x11 x12 x13 x14 x15 x16 (ix3 μ n d) = dec 50000 x0 x3 x4 x5 x6 x7 x8 x9 x10 x11 x12 x13 x14 x15 x16 μ n d := by
  simp only [val_main_v39_apply, val_main_v36_apply, val_main_v38_apply, val_main_v37_apply,
    lidx_main_v36_ix, ridx_main_v36_ix, idx_main_v37_ix, idx_main_v38_ix, ref_lay2]
  rfl

/-- The reference's encoder output — the sum over the modality axis from a zero initial value, divided by two —
    is the encoder: the sum regroups as (0 + dec₀) + dec₁ and the division by 2.0 is the product with 0.5. -/
theorem ref_enc (x0 : (⟨S2x50000x2000, .f32⟩ : BufTy).Contents (Elt Ideal)) (x3 : (⟨S2x2000x500, .f32⟩ : BufTy).Contents (Elt Ideal)) (x4 x5 x6 x7 x8 : (⟨S2x500, .f32⟩ : BufTy).Contents (Elt Ideal)) (x9 : (⟨S2x500x128, .f32⟩ : BufTy).Contents (Elt Ideal)) (x10 x11 x12 x13 x14 : (⟨S2x128, .f32⟩ : BufTy).Contents (Elt Ideal)) (x15 : (⟨S2x128x64, .f32⟩ : BufTy).Contents (Elt Ideal)) (x16 : (⟨S2x64, .f32⟩ : BufTy).Contents (Elt Ideal)) (n : Fin 50000) (d : Fin 64) :
    val_main_v42 (F := Ideal) x0 x3 x4 x5 x6 x7 x8 x9 x10 x11 x12 x13 x14 x15 x16 (ix2 n d) = enc x0 x3 x4 x5 x6 x7 x8 x9 x10 x11 x12 x13 x14 x15 x16 n d := by
  rw [val_main_v42_apply, val_main_v40_apply, val_main_v41_apply, val_main_cst_2_apply, val_main_cst_1_apply]
  simp only [idx_main_v40_ix, ref_dec]
  show Ideal.div (acc0 + ∑ k : Fin 2, dec 50000 x0 x3 x4 x5 x6 x7 x8 x9 x10 x11 x12 x13 x14 x15 x16 k n d) (Ideal.ofBits .f32 0x40000000#32) = _
  rw [div_two_eq_mul_half, zero_add_pair]
  rfl

end Cert.Enc

end
-- ==== Proof.TailRef.lean ====
import proofs.«120134_j4784593567773_1_alg».proof.Proof.Gen.ReferenceIdeal.Read
import proofs.«120134_j4784593567773_1_alg».proof.Proof.TailDef

/-!
# The reference's result is `tail` of its encoder output

The reference program computes its encoder output (the mean of the two modalities' encodings) as its 43rd stage
and then performs, operation for operation, the same graph convolution as `tail`: its last stage, as a function
of the 23 arguments, is `tail` applied to the encoder stage, the two edge lists and the six parameters. The two
sides are the same composition of the same operations; the dimension records the two programs print are equal
field by field.
-/

noncomputable section

namespace Cert.Tail

open Idealize.ShloMosaic
open Cert.ReferenceIdeal Cert.ReferenceIdeal.Read

set_option maxRecDepth 16384 in
set_option maxHeartbeats 40000000 in
/-- The reference's result stage is `tail` of its encoder stage. -/
theorem ref_tail
    (x0 : (⟨S2x50000x2000, .f32⟩ : BufTy).Contents (Elt Ideal)) (x1 x2 : (⟨S1600000, .i32⟩ : BufTy).Contents (Elt Ideal))
    (x3 : (⟨S2x2000x500, .f32⟩ : BufTy).Contents (Elt Ideal)) (x4 x5 x6 x7 x8 : (⟨S2x500, .f32⟩ : BufTy).Contents (Elt Ideal))
    (x9 : (⟨S2x500x128, .f32⟩ : BufTy).Contents (Elt Ideal)) (x10 x11 x12 x13 x14 : (⟨S2x128, .f32⟩ : BufTy).Contents (Elt Ideal))
    (x15 : (⟨S2x128x64, .f32⟩ : BufTy).Contents (Elt Ideal)) (x16 : (⟨S2x64, .f32⟩ : BufTy).Contents (Elt Ideal))
    (x17 : (⟨S64x64, .f32⟩ : BufTy).Contents (Elt Ideal)) (x18 : (⟨S64, .f32⟩ : BufTy).Contents (Elt Ideal))
    (x19 : (⟨S64x32, .f32⟩ : BufTy).Contents (Elt Ideal)) (x20 : (⟨S32, .f32⟩ : BufTy).Contents (Elt Ideal))
    (x21 : (⟨S32x4, .f32⟩ : BufTy).Contents (Elt Ideal)) (x22 : (⟨S4, .f32⟩ : BufTy).Contents (Elt Ideal)) :
    val_main_v111 (F := Ideal) x0 x1 x2 x3 x4 x5 x6 x7 x8 x9 x10 x11 x12 x13 x14 x15 x16 x17 x18 x19 x20 x21 x22
      = tail (val_main_v42 (F := Ideal) x0 x3 x4 x5 x6 x7 x8 x9 x10 x11 x12 x13 x14 x15 x16) x1 x2 x17 x18 x19 x20 x21 x22 :=
  rfl

end Cert.Tail

end
-- ==== Proof.TailKernel.lean ====
import proofs.«120134_j4784593567773_1_alg».proof.Proof.Gen.KernelIdeal.Launch
import proofs.«120134_j4784593567773_1_alg».proof.Proof.TailDef

/-!
# The kernel program's host operations after the region compute `tail`

The 91 host operations that follow the region read the region's output buffer (the encoder output), the two
edge lists and the six graph-convolution parameters, and leave their last result in the program's result buffer.
Run from ANY contents `X` of the buffers, that last result is `tail` of what `X` holds at those nine buffers:
each operation's result is its pure function of its operands' contents, and composing the 91 functions in
program order is, operation for operation, the definition of `tail`.

Four of the nine stretches are calls of the module-local functions `clip` (twice) and `relu` (twice). A local
function's operation moves contents between a buffer's own type and the type its value is declared with; at the
literal buffers of a call the two types are the same and the move is the identity, so each call is a list of
three plain operations with the same pure functions. Stating that first keeps the composed term free of those
identity moves.
-/

noncomputable section

namespace Cert.Tail

open Idealize.ShloMosaic Idealize.ShloMosaic.TcCoe Idealize.ShloMosaic.StableHlo
open Cert.KernelIdeal Cert.KernelIdeal.Gen

/-- The first `clip` call (the out-degrees, clipped below at 1) as plain operations. -/
theorem clip0 : (hostOps1_1 : List (HloOp τ sig (Elt Ideal))) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.binary main_call0_v1 main_v4 main_v5 (maximumf (F := Ideal) (s := S50000) (φ := .f32)) ] := rfl

/-- The second `clip` call (the in-degrees). -/
theorem clip1 : (hostOps1_3 : List (HloOp τ sig (Elt Ideal))) =
    [ StableHlo.unary main_cst_3 main_call1_v0 (id : (⟨S_, .f32⟩ : BufTy).Contents (Elt Ideal) → (⟨S_, .f32⟩ : BufTy).Contents (Elt Ideal)),
      StableHlo.unary main_call1_v0 main_call1_v1 (broadcastInDim S50000 ![] bcast_S_S50000 : (⟨S_, .f32⟩ : BufTy).Contents (Elt Ideal) → (⟨S50000, .f32⟩ : BufTy).Contents (Elt Ideal)),
      StableHlo.binary main_call1_v1 main_v8 main_v9 (maximumf (F := Ideal) (s := S50000) (φ := .f32)) ] := rfl

/-- The first `relu` call (after layer 1). -/
theorem relu0 : (hostOps1_5 : List (HloOp τ sig (Elt Ideal))) =
    [ StableHlo.nullary main_call2_cst (constant (F := Ideal) S_ .f32 0x00000000#32),
      StableHlo.unary main_call2_cst main_call2_v0 (broadcastInDim S50000x64 ![] bcast_S_S50000x64 : (⟨S_, .f32⟩ : BufTy).Contents (Elt Ideal) → (⟨S50000x64, .f32⟩ : BufTy).Contents (Elt Ideal)),
      StableHlo.binary main_v31 main_call2_v0 main_v32 (maximumf (F := Ideal) (s := S50000x64) (φ := .f32)) ] := rfl

/-- The second `relu` call (after layer 2). -/
theorem relu1 : (hostOps1_7 : List (HloOp τ sig (Elt Ideal))) =
    [ StableHlo.nullary main_call3_cst (constant (F := Ideal) S_ .f32 0x00000000#32),
      StableHlo.unary main_call3_cst main_call3_v0 (broadcastInDim S50000x32 ![] bcast_S_S50000x32 : (⟨S_, .f32⟩ : BufTy).Contents (Elt Ideal) → (⟨S50000x32, .f32⟩ : BufTy).Contents (Elt Ideal)),
      StableHlo.binary main_v50 main_call3_v0 main_v51 (maximumf (F := Ideal) (s := S50000x32) (φ := .f32)) ] := rfl

set_option maxRecDepth 16384 in
set_option maxHeartbeats 40000000 in
/-- From any buffer contents `X`, the result buffer after the 91 operations holds `tail` of `X`'s encoder output,
    edge lists and parameters. -/
theorem after_tail (X : Valuation τ sig (Elt Ideal)) :
    StableHlo.after (List.flatten ([hostOps1, hostOps1_1, hostOps1_2, hostOps1_3, hostOps1_4, hostOps1_5, hostOps1_6, hostOps1_7, hostOps1_8] : List (List (HloOp τ sig (Elt Ideal))))) X (Proc.devRef .tc main_v69)
      = tail (X (Proc.devRef .tc main_v0)) (X (Proc.devRef .tc main_arg1)) (X (Proc.devRef .tc main_arg2))
          (X (Proc.devRef .tc main_arg17)) (X (Proc.devRef .tc main_arg18)) (X (Proc.devRef .tc main_arg19))
          (X (Proc.devRef .tc main_arg20)) (X (Proc.devRef .tc main_arg21)) (X (Proc.devRef .tc main_arg22)) := by
  rw [clip0, clip1, relu0, relu1]
  simp only [hostOps1, hostOps1_2, hostOps1_4, hostOps1_6, hostOps1_8,
    List.flatten_cons, List.flatten_nil, List.append_nil, List.cons_append, List.nil_append]
  after_results_simp
  rfl

end Cert.Tail

end
-- ==== Proof.lean ====
/-
  The encoder kernel against its reference.

  Both programs compute, for every node, the mean over the two modalities of a three-layer encoder (matrix product,
  bias, batch normalisation; the same again; a decoder product and bias), and then the same three rounds of
  degree-normalised graph convolution over the same edge lists. The kernel computes the encoder block by block, a
  thousand nodes at a time, adding the two modalities into a zero accumulator and halving; the reference computes it for
  all nodes at once, summing over the modality axis and dividing by two. On the extended reals halving is dividing by
  two and the grouping of a sum of two terms is immaterial, so both encoders are one function `enc` of the arguments,
  node by node (EncKernel, EncRef, FinalI). The graph part is literally the same composition of operations on both
  sides (`tail`), so equal encoder outputs give equal results.

  The three frames: the kernel's, at the word level and at the exact level, is the region's launch followed by the
  later operations, none of which writes an argument (FrameRun); the reference is a straight line of host operations.
  The idealisation rewrote nothing, so there is nothing to preserve.
-/
import proofs.«120134_j4784593567773_1_alg».proof.Defs
import proofs.«120134_j4784593567773_1_alg».proof.Proof.Gen.Kernel
import proofs.«120134_j4784593567773_1_alg».proof.Proof.Gen.KernelIdeal
import proofs.«120134_j4784593567773_1_alg».proof.Proof.Gen.ReferenceIdeal
import proofs.«120134_j4784593567773_1_alg».proof.Proof.Gen.Pre_finite_inputs
import proofs.«120134_j4784593567773_1_alg».proof.Proof.Gen.ReferenceIdeal.Read
import proofs.«120134_j4784593567773_1_alg».proof.Proof.FrameRunB
import proofs.«120134_j4784593567773_1_alg».proof.Proof.ValueI
import proofs.«120134_j4784593567773_1_alg».proof.Proof.EncRef
import proofs.«120134_j4784593567773_1_alg».proof.Proof.TailRef
import proofs.«120134_j4784593567773_1_alg».proof.Proof.TailKernel
import Idealize.ShloMosaic.Adequacy
import Idealize.ShloMosaic.Init

set_option maxRecDepth 16384

noncomputable section

namespace Cert.Proof

open Idealize.ShloMosaic Idealize.ShloMosaic.ValueIdx Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The value -/

/-- The reference's encoder stage, of the arguments the kernel was launched with, is the kernel's feature array:
    both are the specification, node by node. -/
theorem ref_feat (m : (ℓ : Loc Cert.KernelIdeal.nD Cert.KernelIdeal.τ Cert.KernelIdeal.sig) → Buf (Elt Ideal) ℓ) (c : Dev Cert.KernelIdeal.nD) :
    Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
      = Cert.KernelIdeal.Hand.featOf m c := by
  funext i
  obtain ⟨n, d, rfl⟩ : ∃ (n : Fin 50000) (d : Fin 64), i = ix2 n d := ⟨i 0, i 1, eq_ix2 i⟩
  exact Cert.Enc.ref_enc _ _ _ _ _ _ _ _ _ _ _ _ _ _ _ n d

theorem algebraic : Cert.algebraic_KernelIdeal_ReferenceIdeal := by
  intro m ρ m' ρ' _ hagree
  refine ⟨fun c => Cert.KernelIdeal.Hand.resultOf m c, ?_, ?_⟩
  · exact (θ_run Cert.KernelIdeal.defs _ _).mono
      (fun _ h c => ⟨(h c).1.trans (Cert.KernelIdeal.Hand.kernel_value m Cert.Tail.after_tail c), (h c).2⟩)
      (Cert.KernelIdeal.Hand.run_full (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21, a22⟩ := hagree c
    rw [Cert.ReferenceIdeal.Read.val_main_v111_eq, Cert.Tail.ref_tail, a0, a1, a2, a3, a4, a5, a6, a7, a8, a9, a10, a11, a12, a13, a14, a15, a16, a17, a18, a19, a20, a21, a22, ref_feat m c]
    rfl

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
